-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x15 : Shape := ⟨2, ![128, 15]⟩
abbrev S15 : Shape := ⟨1, ![15]⟩
abbrev S15x15 : Shape := ⟨2, ![15, 15]⟩
abbrev S15x128 : Shape := ⟨2, ![15, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x15 : S_.BroadcastsInDim S128x15 (![] : Fin 0 → Fin S128x15.rank)
  reducesTo_S128x15_S_d0_1 : S128x15.ReducesTo [0, 1] S_
  bcast_S_S15 : S_.BroadcastsInDim S15 (![] : Fin 0 → Fin S15.rank)
  reducesTo_S15_S_d0 : S15.ReducesTo [0] S_
  bcast_S_S15x15 : S_.BroadcastsInDim S15x15 (![] : Fin 0 → Fin S15x15.rank)
  reducesTo_S15x15_S_d0_1 : S15x15.ReducesTo [0, 1] S_
  bcast_S_S15x128 : S_.BroadcastsInDim S15x128 (![] : Fin 0 → Fin S15x128.rank)
  reducesTo_S15x128_S_d0_1 : S15x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S15x128 .f32) (main_arg9 : FVec F S128 .f32) (main_v33 : IVec S_ 1) : IVec S_ 1 :=
  let main_v34 : FVec F S15x128 .f32 := Host.absf main_arg8
  let main_cst_12 : FVec F S_ .f32 := constant S_ .f32 0x7F800000#32
  let main_v35 : FVec F S15x128 .f32 := broadcastInDim S15x128 ![] bcast_S_S15x128 main_cst_12
  let main_v36 : IVec S15x128 1 := cmpf .olt main_v34 main_v35
  let main_c_13 : IVec S_ 1 := constantI S_ 1 1#1
  let main_v37 : IVec S_ 1 := (fun x v => Host.reduce IntOp.andi x v reducesTo_S15x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S15 .f32) (main_arg6 : FVec F S15x15 .f32) (main_arg7 : FVec F S15 .f32) (main_arg8 : FVec F S15x128 .f32) (main_arg9 : FVec F S128 .f32) (main_v13 : IVec S_ 1) (main_v16 : IVec S15x15 1) : IVec S_ 1 :=
  let main_c_5 : IVec S_ 1 := constantI S_ 1 1#1
  let main_v17 : IVec S_ 1 := (fun x v => Host.reduce IntOp.andi x v reducesTo_S15x15_S_d0_1 h_S_) main_v16 main_c_5
  let main_v18 : IVec S_ 1 := andi main_v13 main_v17
  let main_v19 : FVec F S15 .f32 := Host.absf main_arg5
  let main_cst_6 : FVec F S_ .f32 := constant S_ .f32 0x7F800000#32
  let main_v20 : FVec F S15 .f32 := broadcastInDim S15 ![] bcast_S_S15 main_cst_6
  let main_v21 : IVec S15 1 := cmpf .olt main_v19 main_v20
  let main_c_7 : IVec S_ 1 := constantI S_ 1 1#1
  let main_v22 : IVec S_ 1 := (fun x v => Host.reduce IntOp.andi x v reducesTo_S15_S_d0 h_S_) main_v21 main_c_7
  let main_v23 : IVec S_ 1 := andi main_v18 main_v22
  let main_v24 : FVec F S15x15 .f32 := Host.absf main_arg6
  let main_cst_8 : FVec F S_ .f32 := constant S_ .f32 0x7F800000#32
  let main_v25 : FVec F S15x15 .f32 := broadcastInDim S15x15 ![] bcast_S_S15x15 main_cst_8
  let main_v26 : IVec S15x15 1 := cmpf .olt main_v24 main_v25
  let main_c_9 : IVec S_ 1 := constantI S_ 1 1#1
  let main_v27 : IVec S_ 1 := (fun x v => Host.reduce IntOp.andi x v reducesTo_S15x15_S_d0_1 h_S_) main_v26 main_c_9
  let main_v28 : IVec S_ 1 := andi main_v23 main_v27
  let main_v29 : FVec F S15 .f32 := Host.absf main_arg7
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x6400000 32) (main_arg2 : FVec F S128x15 .f32) (main_arg3 : FVec F S15 .f32) (main_arg4 : FVec F S15x15 .f32) (main_arg5 : FVec F S15 .f32) (main_arg6 : FVec F S15x15 .f32) (main_arg7 : FVec F S15 .f32) (main_arg8 : FVec F S15x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x15 .f32 := Host.absf main_arg2
  let main_cst_0 : FVec F S_ .f32 := constant S_ .f32 0x7F800000#32
  let main_v5 : FVec F S128x15 .f32 := broadcastInDim S128x15 ![] bcast_S_S128x15 main_cst_0
  let main_v6 : IVec S128x15 1 := cmpf .olt main_v4 main_v5
  let main_c_1 : IVec S_ 1 := constantI S_ 1 1#1
  let main_v7 : IVec S_ 1 := (fun x v => Host.reduce IntOp.andi x v reducesTo_S128x15_S_d0_1 h_S_) main_v6 main_c_1
  let main_v8 : IVec S_ 1 := andi main_v3 main_v7
  let main_v9 : FVec F S15 .f32 := Host.absf main_arg3
  let main_cst_2 : FVec F S_ .f32 := constant S_ .f32 0x7F800000#32
  let main_v10 : FVec F S15 .f32 := broadcastInDim S15 ![] bcast_S_S15 main_cst_2
  let main_v11 : IVec S15 1 := cmpf .olt main_v9 main_v10
  let main_c_3 : IVec S_ 1 := constantI S_ 1 1#1
  let main_v12 : IVec S_ 1 := (fun x v => Host.reduce IntOp.andi x v reducesTo_S15_S_d0 h_S_) main_v11 main_c_3
  let main_v13 : IVec S_ 1 := andi main_v8 main_v12
  let main_v14 : FVec F S15x15 .f32 := Host.absf main_arg4
  let main_cst_4 : FVec F S_ .f32 := constant S_ .f32 0x7F800000#32
  let main_v15 : FVec F S15x15 .f32 := broadcastInDim S15x15 ![] bcast_S_S15x15 main_cst_4
  let main_v16 : IVec S15x15 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x6400000 : Shape := ⟨2, ![2, 6400000]⟩
abbrev S128x15 : Shape := ⟨2, ![128, 15]⟩
abbrev S15 : Shape := ⟨1, ![15]⟩
abbrev S15x15 : Shape := ⟨2, ![15, 15]⟩
abbrev S15x128 : Shape := ⟨2, ![15, 128]⟩
abbrev S128 : Shape := ⟨1, ![128]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S1x15 : Shape := ⟨2, ![1, 15]⟩
abbrev S100000x15 : Shape := ⟨2, ![100000, 15]⟩
abbrev S10000x128 : Shape := ⟨2, ![10000, 128]⟩
abbrev S10000x15 : Shape := ⟨2, ![10000, 15]⟩
abbrev S6500000x15 : Shape := ⟨2, ![6500000, 15]⟩
abbrev S1x128 : Shape := ⟨2, ![1, 128]⟩

abbrev nBuf : Space → Nat
  | .hbm => 114
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S15x15, .f32⟩
  | .hbm, ⟨7, _⟩ => ⟨S15, .f32⟩
  | .hbm, ⟨8, _⟩ => ⟨S15x128, .f32⟩
  | .hbm, ⟨9, _⟩ => ⟨S128, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S_, .f32⟩
  | .hbm, ⟨51, _⟩ => ⟨S15, .f32⟩
  | .hbm, ⟨52, _⟩ => ⟨S1x15, .f32⟩
  | .hbm, ⟨53, _⟩ => ⟨S100000x15, .f32⟩
  | .hbm, ⟨54, _⟩ => ⟨S_, .i32⟩
  | .hbm, ⟨55, _⟩ => ⟨S6500000, .i32⟩
  | .hbm, ⟨56, _⟩ => ⟨S6500000, .i1⟩
  | .hbm, ⟨57, _⟩ => ⟨S_, .i32⟩
  | .hbm, ⟨58, _⟩ => ⟨S6500000, .i32⟩
  | .hbm, ⟨59, _⟩ => ⟨S6500000, .i32⟩
  | .hbm, ⟨60, _⟩ => ⟨S6500000, .i32⟩
  | .hbm, ⟨61, _⟩ => ⟨S6500000x1, .i32⟩
  | .hbm, ⟨62, _⟩ => ⟨S6500000x15, .f32⟩
  | .hbm, ⟨63, _⟩ => ⟨S6500000x1, .f32⟩
  | .hbm, ⟨64, _⟩ => ⟨S6500000x15, .f32⟩
  | .hbm, ⟨65, _⟩ => ⟨S6500000x15, .f32⟩
  | .hbm, ⟨66, _⟩ => ⟨S_, .f32⟩
  | .hbm, ⟨67, _⟩ => ⟨S100000x15, .f32⟩
  | .hbm, ⟨68, _⟩ => ⟨S6500000x1, .i32⟩
  | .hbm, ⟨69, _⟩ => ⟨S100000x15, .f32⟩
  | .hbm, ⟨70, _⟩ => ⟨S1x15, .f32⟩
  | .hbm, ⟨71, _⟩ => ⟨S100000x15, .f32⟩
  | .hbm, ⟨72, _⟩ => ⟨S1x15, .f32⟩
  | .hbm, ⟨73, _⟩ => ⟨S100000x15, .f32⟩
  | .hbm, ⟨74, _⟩ => ⟨S_, .i32⟩
  | .hbm, ⟨75, _⟩ => ⟨S6500000, .i32⟩
  | .hbm, ⟨76, _⟩ => ⟨S6500000, .i1⟩
  | .hbm, ⟨77, _⟩ => ⟨S_, .i32⟩
  | .hbm, ⟨78, _⟩ => ⟨S6500000, .i32⟩
  | .hbm, ⟨79, _⟩ => ⟨S6500000, .i32⟩
  | .hbm, ⟨80, _⟩ => ⟨S6500000, .i32⟩
  | .hbm, ⟨81, _⟩ => ⟨S6500000x1, .i32⟩
  | .hbm, ⟨82, _⟩ => ⟨S6500000x15, .f32⟩
  | .hbm, ⟨83, _⟩ => ⟨S6500000x1, .f32⟩
  | .hbm, ⟨84, _⟩ => ⟨S6500000x15, .f32⟩
  | .hbm, ⟨85, _⟩ => ⟨S6500000x15, .f32⟩
  | .hbm, ⟨86, _⟩ => ⟨S_, .f32⟩
  | .hbm, ⟨87, _⟩ => ⟨S100000x15, .f32⟩
  | .hbm, ⟨88, _⟩ => ⟨S6500000x1, .i32⟩
  | .hbm, ⟨89, _⟩ => ⟨S100000x15, .f32⟩
  | .hbm, ⟨90, _⟩ => ⟨S1x15, .f32⟩
  | .hbm, ⟨91, _⟩ => ⟨S100000x15, .f32⟩
  | .hbm, ⟨92, _⟩ => ⟨S1x15, .f32⟩
  | .hbm, ⟨93, _⟩ => ⟨S100000x15, .f32⟩
  | .hbm, ⟨94, _⟩ => ⟨S_, .i32⟩
  | .hbm, ⟨95, _⟩ => ⟨S6500000, .i32⟩
  | .hbm, ⟨96, _⟩ => ⟨S6500000, .i1⟩
  | .hbm, ⟨97, _⟩ => ⟨S_, .i32⟩
  | .hbm, ⟨98, _⟩ => ⟨S6500000, .i32⟩
  | .hbm, ⟨99, _⟩ => ⟨S6500000, .i32⟩
  | .hbm, ⟨100, _⟩ => ⟨S6500000, .i32⟩
  | .hbm, ⟨101, _⟩ => ⟨S6500000x1, .i32⟩
  | .hbm, ⟨102, _⟩ => ⟨S6500000x15, .f32⟩
  | .hbm, ⟨103, _⟩ => ⟨S6500000x1, .f32⟩
  | .hbm, ⟨104, _⟩ => ⟨S6500000x15, .f32⟩
  | .hbm, ⟨105, _⟩ => ⟨S6500000x15, .f32⟩
  | .hbm, ⟨106, _⟩ => ⟨S_, .f32⟩
  | .hbm, ⟨107, _⟩ => ⟨S100000x15, .f32⟩
  | .hbm, ⟨108, _⟩ => ⟨S6500000x1, .i32⟩
  | .hbm, ⟨109, _⟩ => ⟨S100000x15, .f32⟩
  | .hbm, ⟨110, _⟩ => ⟨S1x15, .f32⟩
  | .hbm, ⟨111, _⟩ => ⟨S100000x15, .f32⟩
  | .hbm, ⟨112, _⟩ => ⟨S1x128, .f32⟩
  | .hbm, ⟨113, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x15, .f32⟩
  | .local _ .vmem, ⟨3, _⟩ => ⟨S1x15, .f32⟩
  | .local _ .vmem, ⟨4, _⟩ => ⟨S10000x15, .f32⟩
  | .local _ .vmem, ⟨5, _⟩ => ⟨S10000x15, .f32⟩
  | .local _ .vmem, ⟨6, _⟩ => ⟨S10000x15, .f32⟩
  | .local _ .vmem, ⟨7, _⟩ => ⟨S10000x15, .f32⟩
  | .local _ .vmem, ⟨8, _⟩ => ⟨S1x15, .f32⟩
  | .local _ .vmem, ⟨9, _⟩ => ⟨S10000x15, .f32⟩
  | .local _ .vmem, ⟨10, _⟩ => ⟨S10000x15, .f32⟩
  | .local _ .vmem, ⟨11, _⟩ => ⟨S10000x15, .f32⟩
  | .local _ .vmem, ⟨12, _⟩ => ⟨S10000x15, .f32⟩
  | .local _ .vmem, ⟨13, _⟩ => ⟨S15x15, .f32⟩
  | .local _ .vmem, ⟨14, _⟩ => ⟨S1x15, .f32⟩
  | .local _ .vmem, ⟨15, _⟩ => ⟨S10000x15, .f32⟩
  | .local _ .vmem, ⟨16, _⟩ => ⟨S10000x15, .f32⟩
  | .local _ .vmem, ⟨17, _⟩ => ⟨S10000x15, .f32⟩
  | .local _ .vmem, ⟨18, _⟩ => ⟨S10000x15, .f32⟩
  | .local _ .vmem, ⟨19, _⟩ => ⟨S1x15, .f32⟩
  | .local _ .vmem, ⟨20, _⟩ => ⟨S10000x15, .f32⟩
  | .local _ .vmem, ⟨21, _⟩ => ⟨S10000x15, .f32⟩
  | .local _ .vmem, ⟨22, _⟩ => ⟨S10000x15, .f32⟩
  | .local _ .vmem, ⟨23, _⟩ => ⟨S10000x15, .f32⟩
  | .local _ .vmem, ⟨24, _⟩ => ⟨S15x15, .f32⟩
  | .local _ .vmem, ⟨25, _⟩ => ⟨S1x15, .f32⟩
  | .local _ .vmem, ⟨26, _⟩ => ⟨S10000x15, .f32⟩
  | .local _ .vmem, ⟨27, _⟩ => ⟨S10000x15, .f32⟩
  | .local _ .vmem, ⟨28, _⟩ => ⟨S10000x15, .f32⟩
  | .local _ .vmem, ⟨29, _⟩ => ⟨S10000x15, .f32⟩
  | .local _ .vmem, ⟨30, _⟩ => ⟨S1x15, .f32⟩
  | .local _ .vmem, ⟨31, _⟩ => ⟨S10000x15, .f32⟩
  | .local _ .vmem, ⟨32, _⟩ => ⟨S10000x15, .f32⟩
  | .local _ .vmem, ⟨33, _⟩ => ⟨S10000x15, .f32⟩
  | .local _ .vmem, ⟨34, _⟩ => ⟨S10000x15, .f32⟩
  | .local _ .vmem, ⟨35, _⟩ => ⟨S15x128, .f32⟩
  | .local _ .vmem, ⟨36, _⟩ => ⟨S1x128, .f32⟩
  | .local _ .vmem, ⟨37, _⟩ => ⟨S10000x128, .f32⟩
  | .local _ .vmem, ⟨38, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x15 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x15 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x15 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x15 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x15 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S15x15 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x15 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x15 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x15 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x15 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x15 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x15 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S15x15 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x15 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x15 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x15 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x15 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x15 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x15 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S15x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S15 : S_.BroadcastsInDim S15 (![] : Fin 0 → Fin S15.rank)
  shapeCasts_S15_S1x15 : S15.ShapeCasts S1x15
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x15_S128x15_0_0 : ∀ a, (![0, 0] : Fin 2 → Nat) a + S128x15.size a ≤ S128x15.size a
  h_S128x15 : 0 < S128x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S10000x15 : S1x15.Broadcasts S10000x15
  inb_S10000x15_S10000x15_0_0 : ∀ a, (![0, 0] : Fin 2 → Nat) a + S10000x15.size a ≤ S10000x15.size a
  h_S10000x15 : 0 < S10000x15.numel
  bcast_S6500000x1_S6500000x15_0_1 : S6500000x1.BroadcastsInDim S6500000x15 (![0, 1] : Fin 2 → Fin S6500000x15.rank)
  bcast_S_S100000x15 : S_.BroadcastsInDim S100000x15 (![] : Fin 0 → Fin S100000x15.rank)
  shapeCasts_S10000x15_S10000x15 : S10000x15.ShapeCasts S10000x15
  inb_S15x15_S15x15_0_0 : ∀ a, (![0, 0] : Fin 2 → Nat) a + S15x15.size a ≤ S15x15.size a
  h_S15x15 : 0 < S15x15.numel
  shapeCasts_S128_S1x128 : S128.ShapeCasts S1x128
  inb_S15x128_S15x128_0_0 : ∀ a, (![0, 0] : Fin 2 → Nat) a + S15x128.size a ≤ S15x128.size a
  h_S15x128 : 0 < S15x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x128_S128x15_S10000x15_1_0_0_1_n_n_wf : DotDims.WF S10000x128 S128x15 S10000x15 [1] [0] [0] [1] [] []
  gather_S100000x15_S6500000x1_S6500000x15_1_0_n_n_0_1_115_wf : GatherDims.WF S100000x15 S6500000x1 S6500000x15 [1] [0] [] [0] [] 1 ![1, 15]
  scatter_S100000x15_S6500000x1_S6500000x15_1_0_0_1_wf : ScatterDims.WF S100000x15 S6500000x1 S6500000x15 [1] [0] [0] 1
  dot_S10000x15_S15x15_S10000x15_1_0_0_1_n_n_wf : DotDims.WF S10000x15 S15x15 S10000x15 [1] [0] [0] [1] [] []
  dot_S10000x15_S15x128_S10000x128_1_0_0_1_n_n_wf : DotDims.WF S10000x15 S15x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x15.size a ≤ S128x15.size a
  hwx0_1 : ∀ i : grid0.Coords, EltTy.bits .f32 = 32 ∨ (Rect.block (s := S128x15) S128x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x15.size a ≤ S1x15.size a
  hwx0_2 : ∀ i : grid0.Coords, EltTy.bits .f32 = 32 ∨ (Rect.block (s := S1x15) S1x15.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x15.size a ≤ S100000x15.size a
  hwx0_3 : ∀ i : grid0.Coords, EltTy.bits .f32 = 32 ∨ (Rect.block (s := S100000x15) S10000x15.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x15.size a ≤ S100000x15.size a
  hwx1_0 : ∀ i : grid1.Coords, EltTy.bits .f32 = 32 ∨ (Rect.block (s := S100000x15) S10000x15.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x15.size a ≤ S1x15.size a
  hwx1_1 : ∀ i : grid1.Coords, EltTy.bits .f32 = 32 ∨ (Rect.block (s := S1x15) S1x15.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x15.size a ≤ S100000x15.size a
  hwx1_2 : ∀ i : grid1.Coords, EltTy.bits .f32 = 32 ∨ (Rect.block (s := S100000x15) S10000x15.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x15.size a ≤ S100000x15.size a
  hwx2_0 : ∀ i : grid2.Coords, EltTy.bits .f32 = 32 ∨ (Rect.block (s := S100000x15) S10000x15.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S15x15.size a ≤ S15x15.size a
  hwx2_1 : ∀ i : grid2.Coords, EltTy.bits .f32 = 32 ∨ (Rect.block (s := S15x15) S15x15.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x15.size a ≤ S1x15.size a
  hwx2_2 : ∀ i : grid2.Coords, EltTy.bits .f32 = 32 ∨ (Rect.block (s := S1x15) S1x15.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x15.size a ≤ S100000x15.size a
  hwx2_3 : ∀ i : grid2.Coords, EltTy.bits .f32 = 32 ∨ (Rect.block (s := S100000x15) S10000x15.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x15.size a ≤ S100000x15.size a
  hwx3_0 : ∀ i : grid3.Coords, EltTy.bits .f32 = 32 ∨ (Rect.block (s := S100000x15) S10000x15.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x15.size a ≤ S1x15.size a
  hwx3_1 : ∀ i : grid3.Coords, EltTy.bits .f32 = 32 ∨ (Rect.block (s := S1x15) S1x15.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x15.size a ≤ S100000x15.size a
  hwx3_2 : ∀ i : grid3.Coords, EltTy.bits .f32 = 32 ∨ (Rect.block (s := S100000x15) S10000x15.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x15.size a ≤ S100000x15.size a
  hwx4_0 : ∀ i : grid4.Coords, EltTy.bits .f32 = 32 ∨ (Rect.block (s := S100000x15) S10000x15.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S15x15.size a ≤ S15x15.size a
  hwx4_1 : ∀ i : grid4.Coords, EltTy.bits .f32 = 32 ∨ (Rect.block (s := S15x15) S15x15.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x15.size a ≤ S1x15.size a
  hwx4_2 : ∀ i : grid4.Coords, EltTy.bits .f32 = 32 ∨ (Rect.block (s := S1x15) S1x15.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x15.size a ≤ S100000x15.size a
  hwx4_3 : ∀ i : grid4.Coords, EltTy.bits .f32 = 32 ∨ (Rect.block (s := S100000x15) S10000x15.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x15.size a ≤ S100000x15.size a
  hwx5_0 : ∀ i : grid5.Coords, EltTy.bits .f32 = 32 ∨ (Rect.block (s := S100000x15) S10000x15.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x15.size a ≤ S1x15.size a
  hwx5_1 : ∀ i : grid5.Coords, EltTy.bits .f32 = 32 ∨ (Rect.block (s := S1x15) S1x15.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x15.size a ≤ S100000x15.size a
  hwx5_2 : ∀ i : grid5.Coords, EltTy.bits .f32 = 32 ∨ (Rect.block (s := S100000x15) S10000x15.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x15.size a ≤ S100000x15.size a
  hwx6_0 : ∀ i : grid6.Coords, EltTy.bits .f32 = 32 ∨ (Rect.block (s := S100000x15) S10000x15.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S15x128.size a ≤ S15x128.size a
  hwx6_1 : ∀ i : grid6.Coords, EltTy.bits .f32 = 32 ∨ (Rect.block (s := S15x128) S15x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x128_S128x15_S10000x15_1_0_0_1_n_n : DotDims S10000x128 S128x15 S10000x15 where
  lhsContracting := [1]
  rhsContracting := [0]
  lhsNonContracting := [0]
  rhsNonContracting := [1]
  lhsBatch := []
  rhsBatch := []
  wf := dot_S10000x128_S128x15_S10000x15_1_0_0_1_n_n_wf
def gather_S100000x15_S6500000x1_S6500000x15_1_0_n_n_0_1_115 : GatherDims S100000x15 S6500000x1 S6500000x15 where
  offsetDims := [1]
  collapsedSliceDims := [0]
  operandBatchingDims := []
  startIndicesBatchingDims := []
  startIndexMap := [0]
  indexVectorDim := 1
  sliceSizes := ![1, 15]
  wf := gather_S100000x15_S6500000x1_S6500000x15_1_0_n_n_0_1_115_wf
def scatter_S100000x15_S6500000x1_S6500000x15_1_0_0_1 : ScatterDims S100000x15 S6500000x1 S6500000x15 where
  updateWindowDims := [1]
  insertedWindowDims := [0]
  scatterDimsToOperandDims := [0]
  indexVectorDim := 1
  wf := scatter_S100000x15_S6500000x1_S6500000x15_1_0_0_1_wf
def dot_S10000x15_S15x15_S10000x15_1_0_0_1_n_n : DotDims S10000x15 S15x15 S10000x15 where
  lhsContracting := [1]
  rhsContracting := [0]
  lhsNonContracting := [0]
  rhsNonContracting := [1]
  lhsBatch := []
  rhsBatch := []
  wf := dot_S10000x15_S15x15_S10000x15_1_0_0_1_n_n_wf
def dot_S10000x15_S15x128_S10000x128_1_0_0_1_n_n : DotDims S10000x15 S15x128 S10000x128 where
  lhsContracting := [1]
  rhsContracting := [0]
  lhsNonContracting := [0]
  rhsNonContracting := [1]
  lhsBatch := []
  rhsBatch := []
  wf := dot_S10000x15_S15x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S10000x15.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x15.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x15.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x15.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x15.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S15x15.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x15.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S10000x15.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S10000x15.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x15.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x15.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S10000x15.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S15x15.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x15.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S10000x15.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v79) S10000x15.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x15.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S10000x15.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S10000x15.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S15x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x15 : Shape := ⟨2, ![128, 15]⟩
abbrev S15 : Shape := ⟨1, ![15]⟩
abbrev S15x15 : Shape := ⟨2, ![15, 15]⟩
abbrev S15x128 : Shape := ⟨2, ![15, 128]⟩
abbrev S128 : Shape := ⟨1, ![128]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x15 : Shape := ⟨2, ![100000, 15]⟩
abbrev S6500000x15 : Shape := ⟨2, ![6500000, 15]⟩
abbrev S1x15 : Shape := ⟨2, ![1, 15]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S15x15, .f32⟩
  | .hbm, ⟨7, _⟩ => ⟨S15, .f32⟩
  | .hbm, ⟨8, _⟩ => ⟨S15x128, .f32⟩
  | .hbm, ⟨9, _⟩ => ⟨S128, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S100000x15, .f32⟩
  | .hbm, ⟨51, _⟩ => ⟨S_, .i32⟩
  | .hbm, ⟨52, _⟩ => ⟨S6500000, .i32⟩
  | .hbm, ⟨53, _⟩ => ⟨S6500000, .i1⟩
  | .hbm, ⟨54, _⟩ => ⟨S_, .i32⟩
  | .hbm, ⟨55, _⟩ => ⟨S6500000, .i32⟩
  | .hbm, ⟨56, _⟩ => ⟨S6500000, .i32⟩
  | .hbm, ⟨57, _⟩ => ⟨S6500000, .i32⟩
  | .hbm, ⟨58, _⟩ => ⟨S6500000x1, .i32⟩
  | .hbm, ⟨59, _⟩ => ⟨S6500000x15, .f32⟩
  | .hbm, ⟨60, _⟩ => ⟨S6500000x1, .f32⟩
  | .hbm, ⟨61, _⟩ => ⟨S6500000x15, .f32⟩
  | .hbm, ⟨62, _⟩ => ⟨S6500000x15, .f32⟩
  | .hbm, ⟨63, _⟩ => ⟨S_, .f32⟩
  | .hbm, ⟨64, _⟩ => ⟨S100000x15, .f32⟩
  | .hbm, ⟨65, _⟩ => ⟨S6500000x1, .i32⟩
  | .hbm, ⟨66, _⟩ => ⟨S100000x15, .f32⟩
  | .hbm, ⟨67, _⟩ => ⟨S1x15, .f32⟩
  | .hbm, ⟨68, _⟩ => ⟨S100000x15, .f32⟩
  | .hbm, ⟨69, _⟩ => ⟨S100000x15, .f32⟩
  | .hbm, ⟨70, _⟩ => ⟨S_, .f32⟩
  | .hbm, ⟨71, _⟩ => ⟨S100000x15, .f32⟩
  | .hbm, ⟨72, _⟩ => ⟨S100000x15, .f32⟩
  | .hbm, ⟨73, _⟩ => ⟨S100000x15, .f32⟩
  | .hbm, ⟨74, _⟩ => ⟨S_, .i32⟩
  | .hbm, ⟨75, _⟩ => ⟨S6500000, .i32⟩
  | .hbm, ⟨76, _⟩ => ⟨S6500000, .i1⟩
  | .hbm, ⟨77, _⟩ => ⟨S_, .i32⟩
  | .hbm, ⟨78, _⟩ => ⟨S6500000, .i32⟩
  | .hbm, ⟨79, _⟩ => ⟨S6500000, .i32⟩
  | .hbm, ⟨80, _⟩ => ⟨S6500000, .i32⟩
  | .hbm, ⟨81, _⟩ => ⟨S6500000x1, .i32⟩
  | .hbm, ⟨82, _⟩ => ⟨S6500000x15, .f32⟩
  | .hbm, ⟨83, _⟩ => ⟨S6500000x1, .f32⟩
  | .hbm, ⟨84, _⟩ => ⟨S6500000x15, .f32⟩
  | .hbm, ⟨85, _⟩ => ⟨S6500000x15, .f32⟩
  | .hbm, ⟨86, _⟩ => ⟨S_, .f32⟩
  | .hbm, ⟨87, _⟩ => ⟨S100000x15, .f32⟩
  | .hbm, ⟨88, _⟩ => ⟨S6500000x1, .i32⟩
  | .hbm, ⟨89, _⟩ => ⟨S100000x15, .f32⟩
  | .hbm, ⟨90, _⟩ => ⟨S1x15, .f32⟩
  | .hbm, ⟨91, _⟩ => ⟨S100000x15, .f32⟩
  | .hbm, ⟨92, _⟩ => ⟨S100000x15, .f32⟩
  | .hbm, ⟨93, _⟩ => ⟨S_, .f32⟩
  | .hbm, ⟨94, _⟩ => ⟨S100000x15, .f32⟩
  | .hbm, ⟨95, _⟩ => ⟨S100000x15, .f32⟩
  | .hbm, ⟨96, _⟩ => ⟨S100000x15, .f32⟩
  | .hbm, ⟨97, _⟩ => ⟨S_, .i32⟩
  | .hbm, ⟨98, _⟩ => ⟨S6500000, .i32⟩
  | .hbm, ⟨99, _⟩ => ⟨S6500000, .i1⟩
  | .hbm, ⟨100, _⟩ => ⟨S_, .i32⟩
  | .hbm, ⟨101, _⟩ => ⟨S6500000, .i32⟩
  | .hbm, ⟨102, _⟩ => ⟨S6500000, .i32⟩
  | .hbm, ⟨103, _⟩ => ⟨S6500000, .i32⟩
  | .hbm, ⟨104, _⟩ => ⟨S6500000x1, .i32⟩
  | .hbm, ⟨105, _⟩ => ⟨S6500000x15, .f32⟩
  | .hbm, ⟨106, _⟩ => ⟨S6500000x1, .f32⟩
  | .hbm, ⟨107, _⟩ => ⟨S6500000x15, .f32⟩
  | .hbm, ⟨108, _⟩ => ⟨S6500000x15, .f32⟩
  | .hbm, ⟨109, _⟩ => ⟨S_, .f32⟩
  | .hbm, ⟨110, _⟩ => ⟨S100000x15, .f32⟩
  | .hbm, ⟨111, _⟩ => ⟨S6500000x1, .i32⟩
  | .hbm, ⟨112, _⟩ => ⟨S100000x15, .f32⟩
  | .hbm, ⟨113, _⟩ => ⟨S1x15, .f32⟩
  | .hbm, ⟨114, _⟩ => ⟨S100000x15, .f32⟩
  | .hbm, ⟨115, _⟩ => ⟨S100000x15, .f32⟩
  | .hbm, ⟨116, _⟩ => ⟨S_, .f32⟩
  | .hbm, ⟨117, _⟩ => ⟨S100000x15, .f32⟩
  | .hbm, ⟨118, _⟩ => ⟨S100000x15, .f32⟩
  | .hbm, ⟨119, _⟩ => ⟨S100000x128, .f32⟩
  | .hbm, ⟨120, _⟩ => ⟨S1x128, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x15_0_1 : S6500000x1.BroadcastsInDim S6500000x15 (![0, 1] : Fin 2 → Fin S6500000x15.rank)
  bcast_S_S100000x15 : S_.BroadcastsInDim S100000x15 (![] : Fin 0 → Fin S100000x15.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x15_S100000x15_1_0_0_1_n_n_wf : DotDims.WF S100000x128 S128x15 S100000x15 [1] [0] [0] [1] [] []
  gather_S100000x15_S6500000x1_S6500000x15_1_0_n_n_0_1_115_wf : GatherDims.WF S100000x15 S6500000x1 S6500000x15 [1] [0] [] [0] [] 1 ![1, 15]
  scatter_S100000x15_S6500000x1_S6500000x15_1_0_0_1_wf : ScatterDims.WF S100000x15 S6500000x1 S6500000x15 [1] [0] [0] 1
  dot_S100000x15_S15x15_S100000x15_1_0_0_1_n_n_wf : DotDims.WF S100000x15 S15x15 S100000x15 [1] [0] [0] [1] [] []
  dot_S100000x15_S15x128_S100000x128_1_0_0_1_n_n_wf : DotDims.WF S100000x15 S15x128 S100000x128 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x15_S100000x15_1_0_0_1_n_n : DotDims S100000x128 S128x15 S100000x15 where
  lhsContracting := [1]
  rhsContracting := [0]
  lhsNonContracting := [0]
  rhsNonContracting := [1]
  lhsBatch := []
  rhsBatch := []
  wf := dot_S100000x128_S128x15_S100000x15_1_0_0_1_n_n_wf
def gather_S100000x15_S6500000x1_S6500000x15_1_0_n_n_0_1_115 : GatherDims S100000x15 S6500000x1 S6500000x15 where
  offsetDims := [1]
  collapsedSliceDims := [0]
  operandBatchingDims := []
  startIndicesBatchingDims := []
  startIndexMap := [0]
  indexVectorDim := 1
  sliceSizes := ![1, 15]
  wf := gather_S100000x15_S6500000x1_S6500000x15_1_0_n_n_0_1_115_wf
def scatter_S100000x15_S6500000x1_S6500000x15_1_0_0_1 : ScatterDims S100000x15 S6500000x1 S6500000x15 where
  updateWindowDims := [1]
  insertedWindowDims := [0]
  scatterDimsToOperandDims := [0]
  indexVectorDim := 1
  wf := scatter_S100000x15_S6500000x1_S6500000x15_1_0_0_1_wf
def dot_S100000x15_S15x15_S100000x15_1_0_0_1_n_n : DotDims S100000x15 S15x15 S100000x15 where
  lhsContracting := [1]
  rhsContracting := [0]
  lhsNonContracting := [0]
  rhsNonContracting := [1]
  lhsBatch := []
  rhsBatch := []
  wf := dot_S100000x15_S15x15_S100000x15_1_0_0_1_n_n_wf
def dot_S100000x15_S15x128_S100000x128_1_0_0_1_n_n : DotDims S100000x15 S15x128 S100000x128 where
  lhsContracting := [1]
  rhsContracting := [0]
  lhsNonContracting := [0]
  rhsNonContracting := [1]
  lhsBatch := []
  rhsBatch := []
  wf := dot_S100000x15_S15x128_S100000x128_1_0_0_1_n_n_wf

class Facts : Prop extends Facts₀ where

variable [Facts]
-- ==== Proof.KRun.lean ====
/-
  The idealized kernel's run with its result named. The generated frame certificate runs @main's sixteen segments
  (host stretches and the seven launched kernels) and reads the argument arrays off the last boundary's buffer
  contents; here the same run is read at the result buffer too: every weakly fair execution terminates with the
  result array at what the last boundary's contents hold there, and the arguments as launched.
-/
import proofs.«102663_j75076028334671_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, with the last thread state read against the final state at the result
    buffer as well as at the arguments. -/
theorem run_result : θ_run defs (onTc (τ := τ) (main (F := F))) ⟨m, fun _ => 0, ρ⟩ (fun r => ∀ c : Dev nD,
      r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v83 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Hand

end
-- ==== Proof.Chain0.lean ====
/-
  The kernel program's buffers before its first launched kernel. The host operations there compute, from the edge
  list alone, the two index vectors (sources and targets, each joined with the self-loops), the symmetric
  normalisation `dinv[row] * dinv[col]` of every edge, and a row of zeros for the bias-free dense layers. They are the
  reference program's first operations, so each buffer is stated at the reference's stage of the same operation.
  The argument arrays are untouched. Each stretch of host operations is first read from arbitrary contents `V` (what it
  writes as a function of what it reads, and that it leaves every other buffer alone), then from the contents the
  run really has there.
-/
import proofs.«102663_j75076028334671_1_alg».proof.Proof.Gen.KernelIdeal.Frame
import proofs.«102663_j75076028334671_1_alg».proof.Proof.RefReadP

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

open Cert.ReferenceIdeal.ReadP

variable {F : FTy → Type} [FloatOps F]

/-- The argument arrays other than the edge list. -/
def IsArg (b : Ref sig .tc) : Prop :=
  b = main_arg0 ∨ b = main_arg2 ∨ b = main_arg3 ∨ b = main_arg4 ∨ b = main_arg5 ∨ b = main_arg6 ∨ b = main_arg7 ∨ b = main_arg8 ∨ b = main_arg9

/-- Fifteen zeros, and the same as a row: the bias of the dense layers that have none. -/
def zeros15 : (⟨S15, .f32⟩ : BufTy).Contents (Elt F) := broadcastInDim S15 ![] bcast_S_S15 (constant (F := F) S_ .f32 0x00000000#32)
def zeroRow : (⟨S1x15, .f32⟩ : BufTy).Contents (Elt F) := shapeCast _ (zeros15 (F := F)) shapeCasts_S15_S1x15

section Steps

variable (V : Valuation τ sig (Elt F))

/-! ## The first stretch, from any contents: the index vectors, the degree's comparison and reciprocal root -/

theorem ops0_v3 (x1) (h1 : V (Proc.devRef .tc main_arg1) = x1) : StableHlo.after hostOps0 V (Proc.devRef .tc main_v3) = val_main_v3 (F := F) x1 := by
  after_results; rw [h1]; rfl
theorem ops0_v6 (x1) (h1 : V (Proc.devRef .tc main_arg1) = x1) : StableHlo.after hostOps0 V (Proc.devRef .tc main_v6) = val_main_v6 (F := F) x1 := by
  after_results; rw [h1]; rfl
theorem ops0_v12 (x1) (h1 : V (Proc.devRef .tc main_arg1) = x1) : StableHlo.after hostOps0 V (Proc.devRef .tc main_v12) = val_main_v12 (F := F) x1 := by
  after_results; rw [h1]; rfl
theorem ops0_v13 (x1) (h1 : V (Proc.devRef .tc main_arg1) = x1) : StableHlo.after hostOps0 V (Proc.devRef .tc main_v13) = val_main_v13 (F := F) x1 := by
  after_results; rw [h1]; rfl
theorem ops0_cst2 : StableHlo.after hostOps0 V (Proc.devRef .tc main_cst_2) = val_main_cst_2 (F := F) := by
  after_results; rfl
theorem ops0_keep (b : Ref sig .tc) (hb : IsArg b) : StableHlo.after hostOps0 V (Proc.devRef .tc b) = V (Proc.devRef .tc b) := by
  rcases hb with rfl | rfl | rfl | rfl | rfl | rfl | rfl | rfl | rfl <;> after_results

/-! ## The `where`: the reciprocal root of the degree, zero where the degree is not positive -/

theorem ops01_v14 (x1) (h12 : V (Proc.devRef .tc main_v12) = val_main_v12 (F := F) x1) (h13 : V (Proc.devRef .tc main_v13) = val_main_v13 (F := F) x1)
    (hc : V (Proc.devRef .tc main_cst_2) = val_main_cst_2 (F := F)) :
    StableHlo.after hostOps0_1 V (Proc.devRef .tc main_v14) = val_main_v14 (F := F) x1 := by
  have e : StableHlo.after hostOps0_1 V (Proc.devRef .tc main_v14)
      = select (V (Proc.devRef .tc main_v12)) (V (Proc.devRef .tc main_v13)) (broadcastInDim S100000 ![] bcast_S_S100000 (V (Proc.devRef .tc main_cst_2))) := by
    after_results_simp; rfl
  rw [e, h12, h13, hc]; rfl
theorem ops01_keep (b : Ref sig .tc) (hb : IsArg b ∨ b = main_v3 ∨ b = main_v6) : StableHlo.after hostOps0_1 V (Proc.devRef .tc b) = V (Proc.devRef .tc b) := by
  rcases hb with (rfl | rfl | rfl | rfl | rfl | rfl | rfl | rfl | rfl) | rfl | rfl <;> after_results_simp

/-! ## Up to the first kernel: the edges' normalisation and the row of zeros -/

set_option maxHeartbeats 1000000 in
theorem ops02_v29 (x1) (h3 : V (Proc.devRef .tc main_v3) = val_main_v3 (F := F) x1) (h6 : V (Proc.devRef .tc main_v6) = val_main_v6 (F := F) x1)
    (h14 : V (Proc.devRef .tc main_v14) = val_main_v14 (F := F) x1) :
    StableHlo.after hostOps0_2 V (Proc.devRef .tc main_v29) = val_main_v29 (F := F) x1 := by
  after_results_simp; rw [h3, h6, h14]; rfl
theorem ops02_v30 : StableHlo.after hostOps0_2 V (Proc.devRef .tc main_v30) = zeros15 (F := F) := by
  after_results_simp; rfl
theorem ops02_v31 : StableHlo.after hostOps0_2 V (Proc.devRef .tc main_v31) = zeroRow (F := F) := by
  after_results_simp; rfl
set_option maxHeartbeats 1000000 in
theorem ops02_keep (b : Ref sig .tc) (hb : IsArg b ∨ b = main_v3 ∨ b = main_v6) : StableHlo.after hostOps0_2 V (Proc.devRef .tc b) = V (Proc.devRef .tc b) := by
  rcases hb with (rfl | rfl | rfl | rfl | rfl | rfl | rfl | rfl | rfl) | rfl | rfl <;> after_results_simp

end Steps

variable (m : (ℓ : Loc nD τ sig) → Buf (Elt F) ℓ) (ρ : Dev nD → PrngReg) (c : Dev nD)

/-- The ten argument arrays as launched. -/
abbrev A0 : (⟨Cert.ReferenceIdeal.S100000x128, .f32⟩ : BufTy).Contents (Elt F) := m ((c : Thread nD τ).loc main_arg0)
abbrev A1 : (⟨Cert.ReferenceIdeal.S2x6400000, .i32⟩ : BufTy).Contents (Elt F) := m ((c : Thread nD τ).loc main_arg1)
abbrev A2 : (⟨Cert.ReferenceIdeal.S128x15, .f32⟩ : BufTy).Contents (Elt F) := m ((c : Thread nD τ).loc main_arg2)
abbrev A3 : (⟨Cert.ReferenceIdeal.S15, .f32⟩ : BufTy).Contents (Elt F) := m ((c : Thread nD τ).loc main_arg3)
abbrev A4 : (⟨Cert.ReferenceIdeal.S15x15, .f32⟩ : BufTy).Contents (Elt F) := m ((c : Thread nD τ).loc main_arg4)
abbrev A5 : (⟨Cert.ReferenceIdeal.S15, .f32⟩ : BufTy).Contents (Elt F) := m ((c : Thread nD τ).loc main_arg5)
abbrev A6 : (⟨Cert.ReferenceIdeal.S15x15, .f32⟩ : BufTy).Contents (Elt F) := m ((c : Thread nD τ).loc main_arg6)
abbrev A7 : (⟨Cert.ReferenceIdeal.S15, .f32⟩ : BufTy).Contents (Elt F) := m ((c : Thread nD τ).loc main_arg7)
abbrev A8 : (⟨Cert.ReferenceIdeal.S15x128, .f32⟩ : BufTy).Contents (Elt F) := m ((c : Thread nD τ).loc main_arg8)
abbrev A9 : (⟨Cert.ReferenceIdeal.S128, .f32⟩ : BufTy).Contents (Elt F) := m ((c : Thread nD τ).loc main_arg9)

/-! ## The run's contents at the first three boundaries -/

theorem at1_v3 : W1 m ρ c (Proc.devRef .tc main_v3) = val_main_v3 (A1 m c) := ops0_v3 (W0 m ρ c) _ rfl
theorem at1_v6 : W1 m ρ c (Proc.devRef .tc main_v6) = val_main_v6 (A1 m c) := ops0_v6 (W0 m ρ c) _ rfl
theorem at1_v12 : W1 m ρ c (Proc.devRef .tc main_v12) = val_main_v12 (A1 m c) := ops0_v12 (W0 m ρ c) _ rfl
theorem at1_v13 : W1 m ρ c (Proc.devRef .tc main_v13) = val_main_v13 (A1 m c) := ops0_v13 (W0 m ρ c) _ rfl
theorem at1_cst2 : W1 m ρ c (Proc.devRef .tc main_cst_2) = val_main_cst_2 (F := F) := ops0_cst2 (W0 m ρ c)
theorem at1_arg (b : Ref sig .tc) (hb : IsArg b) : W1 m ρ c (Proc.devRef .tc b) = m ((c : Thread nD τ).loc b) :=
  ops0_keep (W0 m ρ c) b hb

theorem at2_v3 : W2 m ρ c (Proc.devRef .tc main_v3) = val_main_v3 (A1 m c) :=
  (ops01_keep (W1 m ρ c) _ (Or.inr (Or.inl rfl))).trans (at1_v3 m ρ c)
theorem at2_v6 : W2 m ρ c (Proc.devRef .tc main_v6) = val_main_v6 (A1 m c) :=
  (ops01_keep (W1 m ρ c) _ (Or.inr (Or.inr rfl))).trans (at1_v6 m ρ c)
theorem at2_v14 : W2 m ρ c (Proc.devRef .tc main_v14) = val_main_v14 (A1 m c) :=
  ops01_v14 (W1 m ρ c) _ (at1_v12 m ρ c) (at1_v13 m ρ c) (at1_cst2 m ρ c)
theorem at2_arg (b : Ref sig .tc) (hb : IsArg b) : W2 m ρ c (Proc.devRef .tc b) = m ((c : Thread nD τ).loc b) :=
  (ops01_keep (W1 m ρ c) b (Or.inl hb)).trans (at1_arg m ρ c b hb)

theorem at3_v3 : W3 m ρ c (Proc.devRef .tc main_v3) = val_main_v3 (A1 m c) :=
  (ops02_keep (W2 m ρ c) _ (Or.inr (Or.inl rfl))).trans (at2_v3 m ρ c)
theorem at3_v6 : W3 m ρ c (Proc.devRef .tc main_v6) = val_main_v6 (A1 m c) :=
  (ops02_keep (W2 m ρ c) _ (Or.inr (Or.inr rfl))).trans (at2_v6 m ρ c)
theorem at3_v29 : W3 m ρ c (Proc.devRef .tc main_v29) = val_main_v29 (A1 m c) :=
  ops02_v29 (W2 m ρ c) _ (at2_v3 m ρ c) (at2_v6 m ρ c) (at2_v14 m ρ c)
theorem at3_v30 : W3 m ρ c (Proc.devRef .tc main_v30) = zeros15 (F := F) := ops02_v30 (W2 m ρ c)
theorem at3_v31 : W3 m ρ c (Proc.devRef .tc main_v31) = zeroRow (F := F) := ops02_v31 (W2 m ρ c)
theorem at3_arg (b : Ref sig .tc) (hb : IsArg b) : W3 m ρ c (Proc.devRef .tc b) = m ((c : Thread nD τ).loc b) :=
  (ops02_keep (W2 m ρ c) b (Or.inl hb)).trans (at2_arg m ρ c b hb)

end Cert.KernelIdeal.Hand

end
-- ==== Proof.HostSteps.lean ====
/-
  The host operations between the launched kernels, each stretch read from arbitrary buffer contents: what it writes as a
  function of what it reads, and that it leaves every buffer it does not write alone. The three gather / scale /
  scatter-add stretches are the reference program's own operations on the dense layer's output, so what they write is
  the reference's stage once the dense output is; the one-operation stretches recast a vector of fifteen (the zeros,
  or the last bias) as a row.
-/
import proofs.«102663_j75076028334671_1_alg».proof.Proof.Chain0

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-- The arguments from the first bias on, from the second bias on, from the third bias on. -/
def IsArgB (b : Ref sig .tc) : Prop := b = main_arg3 ∨ b = main_arg4 ∨ b = main_arg5 ∨ b = main_arg6 ∨ b = main_arg7 ∨ b = main_arg8 ∨ b = main_arg9
def IsArgC (b : Ref sig .tc) : Prop := b = main_arg5 ∨ b = main_arg6 ∨ b = main_arg7 ∨ b = main_arg8 ∨ b = main_arg9
def IsArgD (b : Ref sig .tc) : Prop := b = main_arg7 ∨ b = main_arg8 ∨ b = main_arg9
theorem IsArgB.isArg {b : Ref sig .tc} (h : IsArgB b) : IsArg b := by
  rcases h with rfl | rfl | rfl | rfl | rfl | rfl | rfl <;> simp [IsArg]
theorem IsArgC.isArgB {b : Ref sig .tc} (h : IsArgC b) : IsArgB b := by
  rcases h with rfl | rfl | rfl | rfl | rfl <;> simp [IsArgB]
theorem IsArgD.isArgC {b : Ref sig .tc} (h : IsArgD b) : IsArgC b := by
  rcases h with rfl | rfl | rfl <;> simp [IsArgC]

variable (V : Valuation τ sig (Elt F))

/-! ## The first gather, scale and scatter-add, from any contents -/

set_option maxHeartbeats 1000000 in
/-- The rows of the dense layer's output gathered along the sources, scaled by the edges' normalisation and added up
    along the targets: the reference's operations on the same operands, so its stage. -/
theorem ops1_v45 (x0 : (⟨Cert.ReferenceIdeal.S100000x128, .f32⟩ : BufTy).Contents (Elt F)) (x1 : (⟨Cert.ReferenceIdeal.S2x6400000, .i32⟩ : BufTy).Contents (Elt F)) (x2 : (⟨Cert.ReferenceIdeal.S128x15, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (hl : V (Proc.devRef .tc main_v32) = val_main_v30 (F := F) x0 x2) :
    StableHlo.after hostOps1 V (Proc.devRef .tc main_v45) = val_main_v43 (F := F) x0 x1 x2 := by
  after_results_simp; rw [h3, h6, h29, hl]; rfl
/-- The bias vector as a row. -/
theorem ops1_v46 (x : (⟨S15, .f32⟩ : BufTy).Contents (Elt F)) (h : V (Proc.devRef .tc main_arg3) = x) :
    StableHlo.after hostOps1 V (Proc.devRef .tc main_v46) = shapeCast S1x15 x shapeCasts_S15_S1x15 := by
  after_results_simp; rw [h]; rfl
set_option maxHeartbeats 2000000 in
theorem ops1_keep (b : Ref sig .tc) (hb : IsArgB b ∨ b = main_v3 ∨ b = main_v6 ∨ b = main_v29 ∨ b = main_v30) :
    StableHlo.after hostOps1 V (Proc.devRef .tc b) = V (Proc.devRef .tc b) := by
  rcases hb with (rfl | rfl | rfl | rfl | rfl | rfl | rfl) | rfl | rfl | rfl | rfl <;> after_results_simp

/-! ## The zero row for the second dense layer -/

theorem ops2_v48 (h : V (Proc.devRef .tc main_v30) = zeros15 (F := F)) : StableHlo.after hostOps2 V (Proc.devRef .tc main_v48) = zeroRow (F := F) := by
  after_results_simp; rw [h]; rfl
theorem ops2_keep (b : Ref sig .tc) (hb : IsArgB b ∨ b = main_v3 ∨ b = main_v6 ∨ b = main_v29 ∨ b = main_v30 ∨ b = main_v47) :
    StableHlo.after hostOps2 V (Proc.devRef .tc b) = V (Proc.devRef .tc b) := by
  rcases hb with (rfl | rfl | rfl | rfl | rfl | rfl | rfl) | rfl | rfl | rfl | rfl | rfl <;> after_results_simp

/-! ## The second gather, scale and scatter-add, from any contents -/

set_option maxHeartbeats 1000000 in
/-- The rows of the dense layer's output gathered along the sources, scaled by the edges' normalisation and added up
    along the targets: the reference's operations on the same operands, so its stage. -/
theorem ops3_v62 (x0 : (⟨Cert.ReferenceIdeal.S100000x128, .f32⟩ : BufTy).Contents (Elt F)) (x1 : (⟨Cert.ReferenceIdeal.S2x6400000, .i32⟩ : BufTy).Contents (Elt F)) (x2 : (⟨Cert.ReferenceIdeal.S128x15, .f32⟩ : BufTy).Contents (Elt F)) (x3 : (⟨Cert.ReferenceIdeal.S15, .f32⟩ : BufTy).Contents (Elt F)) (x4 : (⟨Cert.ReferenceIdeal.S15x15, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (hl : V (Proc.devRef .tc main_v49) = val_main_v48 (F := F) x0 x1 x2 x3 x4) :
    StableHlo.after hostOps3 V (Proc.devRef .tc main_v62) = val_main_v61 (F := F) x0 x1 x2 x3 x4 := by
  after_results_simp; rw [h3, h6, h29, hl]; rfl
/-- The bias vector as a row. -/
theorem ops3_v63 (x : (⟨S15, .f32⟩ : BufTy).Contents (Elt F)) (h : V (Proc.devRef .tc main_arg5) = x) :
    StableHlo.after hostOps3 V (Proc.devRef .tc main_v63) = shapeCast S1x15 x shapeCasts_S15_S1x15 := by
  after_results_simp; rw [h]; rfl
set_option maxHeartbeats 2000000 in
theorem ops3_keep (b : Ref sig .tc) (hb : IsArgC b ∨ b = main_v3 ∨ b = main_v6 ∨ b = main_v29 ∨ b = main_v30) :
    StableHlo.after hostOps3 V (Proc.devRef .tc b) = V (Proc.devRef .tc b) := by
  rcases hb with (rfl | rfl | rfl | rfl | rfl) | rfl | rfl | rfl | rfl <;> after_results_simp

/-! ## The zero row for the third dense layer -/

theorem ops4_v65 (h : V (Proc.devRef .tc main_v30) = zeros15 (F := F)) : StableHlo.after hostOps4 V (Proc.devRef .tc main_v65) = zeroRow (F := F) := by
  after_results_simp; rw [h]; rfl
theorem ops4_keep (b : Ref sig .tc) (hb : IsArgC b ∨ b = main_v3 ∨ b = main_v6 ∨ b = main_v29 ∨ b = main_v64) :
    StableHlo.after hostOps4 V (Proc.devRef .tc b) = V (Proc.devRef .tc b) := by
  rcases hb with (rfl | rfl | rfl | rfl | rfl) | rfl | rfl | rfl | rfl <;> after_results_simp

/-! ## The third gather, scale and scatter-add, from any contents -/

set_option maxHeartbeats 1000000 in
/-- The rows of the dense layer's output gathered along the sources, scaled by the edges' normalisation and added up
    along the targets: the reference's operations on the same operands, so its stage. -/
theorem ops5_v79 (x0 : (⟨Cert.ReferenceIdeal.S100000x128, .f32⟩ : BufTy).Contents (Elt F)) (x1 : (⟨Cert.ReferenceIdeal.S2x6400000, .i32⟩ : BufTy).Contents (Elt F)) (x2 : (⟨Cert.ReferenceIdeal.S128x15, .f32⟩ : BufTy).Contents (Elt F)) (x3 : (⟨Cert.ReferenceIdeal.S15, .f32⟩ : BufTy).Contents (Elt F)) (x4 : (⟨Cert.ReferenceIdeal.S15x15, .f32⟩ : BufTy).Contents (Elt F)) (x5 : (⟨Cert.ReferenceIdeal.S15, .f32⟩ : BufTy).Contents (Elt F)) (x6 : (⟨Cert.ReferenceIdeal.S15x15, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (hl : V (Proc.devRef .tc main_v66) = val_main_v66 (F := F) x0 x1 x2 x3 x4 x5 x6) :
    StableHlo.after hostOps5 V (Proc.devRef .tc main_v79) = val_main_v79 (F := F) x0 x1 x2 x3 x4 x5 x6 := by
  after_results_simp; rw [h3, h6, h29, hl]; rfl
/-- The bias vector as a row. -/
theorem ops5_v80 (x : (⟨S15, .f32⟩ : BufTy).Contents (Elt F)) (h : V (Proc.devRef .tc main_arg7) = x) :
    StableHlo.after hostOps5 V (Proc.devRef .tc main_v80) = shapeCast S1x15 x shapeCasts_S15_S1x15 := by
  after_results_simp; rw [h]; rfl
set_option maxHeartbeats 2000000 in
theorem ops5_keep (b : Ref sig .tc) (hb : IsArgD b) :
    StableHlo.after hostOps5 V (Proc.devRef .tc b) = V (Proc.devRef .tc b) := by
  rcases hb with rfl | rfl | rfl <;> after_results_simp

/-! ## The last bias as a row -/

theorem ops6_v82 (x : (⟨S128, .f32⟩ : BufTy).Contents (Elt F)) (h : V (Proc.devRef .tc main_arg9) = x) :
    StableHlo.after hostOps6 V (Proc.devRef .tc main_v82) = shapeCast S1x128 x shapeCasts_S128_S1x128 := by
  after_results_simp; rw [h]; rfl
theorem ops6_keep (b : Ref sig .tc) (hb : b = main_v81 ∨ b = main_arg8) :
    StableHlo.after hostOps6 V (Proc.devRef .tc b) = V (Proc.devRef .tc b) := by
  rcases hb with rfl | rfl <;> after_results_simp

end Cert.KernelIdeal.Hand

end
-- ==== Proof.Spec.lean ====
/-
  The layers of the graph-convolution network, as whole-array functions over the extended reals.

  A dense layer sends a matrix `x` of rows of features and a weight matrix `w` to the matrix whose entry
  `(p, q)` is the sum over the contracted axis of `x (p, k) * w (k, q)`, plus the entry `q` of a bias row `b`
  (a matrix with one row). The bias-and-rectify layer sends a matrix `a` and a bias row `b` to
  `max (a (p, q) + b (0, q)) 0`. Three dense shapes occur: 128 features to 15, 15 to 15, and 15 to 128,
  each over 100000 rows. Nothing here mentions a program: these are the functions both programs are shown
  to compute, one layer at a time.
-/
import Idealize.ShloMosaic.PureOps.Ideal
import Idealize.ShloMosaic.Lib.ValueIdx

noncomputable section

namespace Cert.GcnSpec

open Idealize.ShloMosaic Idealize.ShloMosaic.ValueIdx

/-- The matrix shapes of the network, by their literal extents. -/
abbrev Mat (r c : Nat) : Shape := ⟨2, ![r, c]⟩

/-- Row `p`, column `q` of an index of a matrix with literal extents, as literal-typed coordinates. -/
abbrev row {r c : Nat} (i : (Mat r c).Idx) : Fin r := ⟨(i 0).val, (i 0).isLt⟩
abbrev col {r c : Nat} (i : (Mat r c).Idx) : Fin c := ⟨(i 1).val, (i 1).isLt⟩

/-- The dense layer from 128 features to 15: `x · w` plus the bias row. -/
def linA (x : (Mat 100000 128).Idx → EReal) (w : (Mat 128 15).Idx → EReal) (b : (Mat 1 15).Idx → EReal) :
    (Mat 100000 15).Idx → EReal :=
  fun i => (∑ k : Fin 128, x (ix2 (row i) k) * w (ix2 k (col i))) + b (ix2 (0 : Fin 1) (col i))

/-- The dense layer from 15 features to 15. -/
def linB (x : (Mat 100000 15).Idx → EReal) (w : (Mat 15 15).Idx → EReal) (b : (Mat 1 15).Idx → EReal) :
    (Mat 100000 15).Idx → EReal :=
  fun i => (∑ k : Fin 15, x (ix2 (row i) k) * w (ix2 k (col i))) + b (ix2 (0 : Fin 1) (col i))

/-- The dense layer from 15 features to 128. -/
def linC (x : (Mat 100000 15).Idx → EReal) (w : (Mat 15 128).Idx → EReal) (b : (Mat 1 128).Idx → EReal) :
    (Mat 100000 128).Idx → EReal :=
  fun i => (∑ k : Fin 15, x (ix2 (row i) k) * w (ix2 k (col i))) + b (ix2 (0 : Fin 1) (col i))

/-- Bias, then rectify: `max (a + b) 0`, the bias a row. -/
def biasRelu (a : (Mat 100000 15).Idx → EReal) (b : (Mat 1 15).Idx → EReal) : (Mat 100000 15).Idx → EReal :=
  fun i => max (a i + b (ix2 (0 : Fin 1) (col i))) 0

theorem linA_apply (x : (Mat 100000 128).Idx → EReal) (w : (Mat 128 15).Idx → EReal) (b : (Mat 1 15).Idx → EReal)
    (p : Fin 100000) (q : Fin 15) :
    linA x w b (ix2 p q) = (∑ k : Fin 128, x (ix2 p k) * w (ix2 k q)) + b (ix2 (0 : Fin 1) q) := rfl

theorem linB_apply (x : (Mat 100000 15).Idx → EReal) (w : (Mat 15 15).Idx → EReal) (b : (Mat 1 15).Idx → EReal)
    (p : Fin 100000) (q : Fin 15) :
    linB x w b (ix2 p q) = (∑ k : Fin 15, x (ix2 p k) * w (ix2 k q)) + b (ix2 (0 : Fin 1) q) := rfl

theorem linC_apply (x : (Mat 100000 15).Idx → EReal) (w : (Mat 15 128).Idx → EReal) (b : (Mat 1 128).Idx → EReal)
    (p : Fin 100000) (q : Fin 128) :
    linC x w b (ix2 p q) = (∑ k : Fin 15, x (ix2 p k) * w (ix2 k q)) + b (ix2 (0 : Fin 1) q) := rfl

theorem biasRelu_apply (a : (Mat 100000 15).Idx → EReal) (b : (Mat 1 15).Idx → EReal) (p : Fin 100000) (q : Fin 15) :
    biasRelu a b (ix2 p q) = max (a (ix2 p q) + b (ix2 (0 : Fin 1) q)) 0 := rfl

end Cert.GcnSpec

end
-- ==== Proof.Region0.lean ====
/-
  The first dense layer, from 128 features to 15, as the kernel computes it: ten grid points, each taking a block of
  10000 rows of the 100000-row feature array, the whole 128 × 15 weight array and the whole bias row, and writing the
  block of 10000 rows of the result. Entry (p, q) of the block a point writes is the sum over the 128 features of
  row p of its block of rows times column q of the weights, plus entry q of the bias row; the ten blocks tile the
  result array, which therefore ends holding the dense layer of the arrays the region finds.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at one entry of a block -/

/-- The row coordinate of the left operand's index is the output's row. -/
theorem lhs0_row (i : S10000x15.Idx) (q : dot_S10000x128_S128x15_S10000x15_1_0_0_1_n_n.contr.Idx) :
    (dot_S10000x128_S128x15_S10000x15_1_0_0_1_n_n.lhsIdx i q 0).val = (i 0).val := by
  unfold DotDims.lhsIdx
  rw [dif_neg (show ¬(0 : Fin S10000x128.rank) ∈ dot_S10000x128_S128x15_S10000x15_1_0_0_1_n_n.lhsBatch by decide), dif_pos (show (0 : Fin S10000x128.rank) ∈ dot_S10000x128_S128x15_S10000x15_1_0_0_1_n_n.lhsNonContracting by decide)]
  rfl
/-- Its column coordinate is the contracted coordinate. -/
theorem lhs0_col (i : S10000x15.Idx) (q : dot_S10000x128_S128x15_S10000x15_1_0_0_1_n_n.contr.Idx) :
    (dot_S10000x128_S128x15_S10000x15_1_0_0_1_n_n.lhsIdx i q 1).val = (q ⟨0, by decide⟩).val :=
  dot_S10000x128_S128x15_S10000x15_1_0_0_1_n_n.lhsIdx_val_of_single rfl i q
/-- The row coordinate of the right operand's index is the contracted coordinate. -/
theorem rhs0_row (i : S10000x15.Idx) (q : dot_S10000x128_S128x15_S10000x15_1_0_0_1_n_n.contr.Idx) :
    (dot_S10000x128_S128x15_S10000x15_1_0_0_1_n_n.rhsIdx i q 0).val = (q ⟨0, by decide⟩).val :=
  dot_S10000x128_S128x15_S10000x15_1_0_0_1_n_n.rhsIdx_val_of_single rfl i q
/-- Its column coordinate is the output's column. -/
theorem rhs0_col (i : S10000x15.Idx) (q : dot_S10000x128_S128x15_S10000x15_1_0_0_1_n_n.contr.Idx) :
    (dot_S10000x128_S128x15_S10000x15_1_0_0_1_n_n.rhsIdx i q 1).val = (i 1).val := by
  unfold DotDims.rhsIdx
  rw [dif_neg (show ¬(1 : Fin S128x15.rank) ∈ dot_S10000x128_S128x15_S10000x15_1_0_0_1_n_n.rhsBatch by decide), dif_pos (show (1 : Fin S128x15.rank) ∈ dot_S10000x128_S128x15_S10000x15_1_0_0_1_n_n.rhsNonContracting by decide)]
  rfl

/-- The product of a block of rows with the weights, read at row `p` and column `q`: the sum over the 128 features. -/
theorem matmul0_apply (x0 : FVec Ideal S10000x128 .bf16) (x1 : FVec Ideal S128x15 .bf16) (p : Fin 10000) (q : Fin 15) :
    matmul dot_S10000x128_S128x15_S10000x15_1_0_0_1_n_n none x0 x1 (constant S10000x15 .f32 0x00000000#32) (ix2 p q)
      = ∑ k : Fin 128, x0 (ix2 p k) * x1 (ix2 k q) := by
  refine (Ideal.matmul_constant_zero_apply dot_S10000x128_S128x15_S10000x15_1_0_0_1_n_n none x0 x1 (ix2 p q)).trans ?_
  rw [← Equiv.sum_comp (ValueIdx.contrEquiv1 dot_S10000x128_S128x15_S10000x15_1_0_0_1_n_n 128 rfl rfl).symm]
  refine Finset.sum_congr rfl fun k _ => ?_
  have hk := ValueIdx.contrEquiv1_symm_val dot_S10000x128_S128x15_S10000x15_1_0_0_1_n_n 128 rfl rfl k
  have el : dot_S10000x128_S128x15_S10000x15_1_0_0_1_n_n.lhsIdx (ix2 p q) ((ValueIdx.contrEquiv1 dot_S10000x128_S128x15_S10000x15_1_0_0_1_n_n 128 rfl rfl).symm k) = ix2 p k := funext fun a => Fin.ext (by
    match a with
    | ⟨0, _⟩ => exact lhs0_row _ _
    | ⟨1, _⟩ => exact (lhs0_col _ _).trans hk)
  have er : dot_S10000x128_S128x15_S10000x15_1_0_0_1_n_n.rhsIdx (ix2 p q) ((ValueIdx.contrEquiv1 dot_S10000x128_S128x15_S10000x15_1_0_0_1_n_n 128 rfl rfl).symm k) = ix2 k q := funext fun a => Fin.ext (by
    match a with
    | ⟨0, _⟩ => exact (rhs0_row _ _).trans hk
    | ⟨1, _⟩ => exact rhs0_col _ _)
  rw [el, er]

/-- What the body stores at row `p`, column `q` of its block: the row of features times the weights' column, plus the bias. -/
theorem payload0_apply (x0 : Vec Ideal S10000x128 .f32) (x1 : Vec Ideal S128x15 .f32) (x2 : Vec Ideal S1x15 .f32) (p : Fin 10000) (q : Fin 15) :
    k0_pay1 x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) ?_ ?_
  · exact matmul0_apply _ _ p q
  · refine (broadcastTo_1b_ab_apply _ broadcasts_S1x15_S10000x15 p q).trans ?_
    rw [shapeCast_self]

/-! ## The blocks of the four windows -/

variable (V : (c : Dev nD) → (b : Ref sig .tc) → Buf (Elt Ideal) ((c : Thread nD τ).loc b))

theorem hz0 : (![0, 0] : Fin 2 → Nat) = fun _ => 0 := funext fun a => by fin_cases a <;> rfl

/-- Which block of its array each window holds at grid point `t`: the rows' block and the result's block are block `t`
    along the rows; the weights and the bias row are always their one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are ten grid points. -/
theorem lt_ten0 (t : Fin cfg0.N) : t.val < 10 :=
  Nat.lt_of_lt_of_eq t.isLt (show cfg0.N = 10 from N_0)

/-- Entry `(p, k)` of the block of rows at point `t` is entry `(10000 t + p, k)` of the array of rows. -/
theorem iblk0_0_apply (c : Dev nD) (t : Fin cfg0.N) (p : Fin 10000) (k : Fin 128) (h : 10000 * t.val + p.val < 100000) :
    (iblk0 (F := Ideal) V c 0 t : Vec Ideal S10000x128 .f32) (ix2 p k)
      = (V c main_arg0 : S100000x128.Idx → Elt Ideal .f32) (ix2 ⟨10000 * t.val + p.val, h⟩ k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * p.val = 10000 * t.val + p.val; rw [e0]; omega
  | ⟨1, _⟩ => show win0_0.index t 1 * 128 + 1 * k.val = k.val; rw [e1]; omega

/-- The weights' block at every point is the whole array of weights. -/
theorem iblk0_1_apply (c : Dev nD) (t : Fin cfg0.N) (k : Fin 128) (q : Fin 15) :
    (iblk0 (F := Ideal) V c 1 t : Vec Ideal S128x15 .f32) (ix2 k q)
      = (V c main_arg2 : S128x15.Idx → Elt Ideal .f32) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 15 + 1 * q.val = q.val; rw [e3]; omega

/-- The bias block at every point is the whole bias row. -/
theorem iblk0_2_apply (c : Dev nD) (t : Fin cfg0.N) (q : Fin 15) :
    (iblk0 (F := Ideal) V c 2 t : Vec Ideal S1x15 .f32) (ix2 (0 : Fin 1) q)
      = (V c main_v31 : S1x15.Idx → Elt Ideal .f32) (ix2 (0 : Fin 1) q) := by
  obtain ⟨-, -, -, -, e4, e5, -⟩ := idx_facts0 t
  unfold iblk0
  rw [View.read_apply]
  show V c main_v31 _ = V c main_v31 _
  congr 1
  funext a
  apply Fin.ext
  match a with
  | ⟨0, _⟩ => show win0_2.index t 0 * 1 + 1 * 0 = 0; rw [e4]
  | ⟨1, _⟩ => show win0_2.index t 1 * 15 + 1 * q.val = q.val; rw [e5]; omega

/-- Entry `(p, q)` of the result's block at point `t` sits at `(10000 t + p, q)` in the result array. -/
theorem emb0_3 (t : Fin cfg0.N) (p : Fin 10000) (q : Fin 15) (h : 10000 * t.val + p.val < 100000) :
    ((cfg0.win 3).blk t).view.emb (ix2 p q) = (ix2 ⟨10000 * t.val + p.val, h⟩ q : S100000x15.Idx) := by
  obtain ⟨-, -, -, -, -, -, e6, e7⟩ := idx_facts0 t
  funext a
  apply Fin.ext
  match a with
  | ⟨0, _⟩ => show win0_3.index t 0 * 10000 + 1 * p.val = 10000 * t.val + p.val; rw [e6]; omega
  | ⟨1, _⟩ => show win0_3.index t 1 * 15 + 1 * q.val = q.val; rw [e7]; omega

/-- What the body leaves at entry `(p, q)` of its block at point `t` is the dense layer at row `10000 t + p`, column `q`:
    it depends on row `10000 t + p` of the features, column `q` of the weights and entry `q` of the bias row. -/
theorem entry0 (c : Dev nD) (t : Fin cfg0.N) (p : Fin 10000) (q : Fin 15) (h : 10000 * t.val + p.val < 100000) :
    k0_pay1 (F := Ideal) (iblk0 V c 0 t) (iblk0 V c 1 t) (iblk0 V c 2 t) (ix2 p q)
      = Cert.GcnSpec.linA (V c main_arg0) (V c main_arg2) (V c main_v31) (ix2 ⟨10000 * t.val + p.val, h⟩ q) := by
  rw [Cert.GcnSpec.linA_apply]
  refine (payload0_apply _ _ _ p q).trans ?_
  refine congrArg₂ (· + ·) (Finset.sum_congr rfl fun k _ => ?_) ?_
  · exact congrArg₂ (· * ·) (iblk0_0_apply V c t p k h) (iblk0_1_apply V c t k q)
  · exact iblk0_2_apply V c t q

/-- The same at any index of the block, the array's index named by the block's place in the array. -/
theorem entry0_emb (c : Dev nD) (t : Fin cfg0.N) (j : S10000x15.Idx) :
    k0_pay1 (F := Ideal) (iblk0 V c 0 t) (iblk0 V c 1 t) (iblk0 V c 2 t) j
      = Cert.GcnSpec.linA (V c main_arg0) (V c main_arg2) (V c main_v31) (((cfg0.win 3).blk t).view.emb j) := by
  obtain ⟨p, q, rfl⟩ : ∃ (p : Fin 10000) (q : Fin 15), j = ix2 p q := ⟨j 0, j 1, eq_ix2 j⟩
  have ht := lt_ten0 t
  have hp := p.isLt
  have h : 10000 * t.val + p.val < 100000 := by omega
  rw [emb0_3 t p q h]
  exact entry0 V c t p q h

/-- WHAT POINT `t` WRITES BACK is block `t` of the dense layer of the arrays the region finds. -/
theorem flushed0_eq (c : Dev nD) (t : Fin cfg0.N) :
    (dat0 (F := Ideal) V c).flushed 3 t
      = ((cfg0.win 3).blk t).view.read (Elt Ideal) (Cert.GcnSpec.linA (V c main_arg0) (V c main_arg2) (V c main_v31)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S128x15) hz0, View.ld_unit_zero (S := S1x15) hz0]
  funext j
  exact entry0_emb V c t j

/-! ## From the blocks to the array -/

/-- An index of the result array is in point `t`'s block iff each coordinate is in the block's range on its axis. -/
theorem mem_blk0 (t : Fin cfg0.N) (i : S100000x15.Idx) :
    i ∈ ((cfg0.win 3).blk t).view.set ↔ ∀ a : Fin 2, win0_3.index t a * S10000x15.size a ≤ (i a).val ∧ (i a).val < win0_3.index t a * S10000x15.size a + S10000x15.size a := by
  show i ∈ ((View.whole main_v32).slice (win0_3.rect t)).set ↔ _
  rw [View.set_slice_whole, Rect.mem_set_unit]
  exact Iff.rfl

/-- Row `r` of the result array is in the block of point `r / 10000`: the ten blocks of 10000 rows tile the 100000 rows. -/
theorem cover0 (i : S100000x15.Idx) :
    ∃ t : Fin cfg0.N, (cfg0.win 3).flush t = true ∧ i ∈ ((cfg0.win 3).blk t).view.set := by
  have hN : grid0.N = 10 := N_0
  have hi0 : (i 0).val < 100000 := (i 0).isLt
  have hi1 : (i 1).val < 15 := (i 1).isLt
  obtain ⟨t, ht⟩ : ∃ t : Fin cfg0.N, t.val = (i 0).val / 10000 :=
    ⟨⟨(i 0).val / 10000, by show (i 0).val / 10000 < grid0.N; omega⟩, rfl⟩
  obtain ⟨-, -, -, -, -, -, e6, e7⟩ := idx_facts0 t
  refine ⟨t, flush0_3 t, ?_⟩
  rw [mem_blk0]
  intro a
  match a with
  | ⟨0, _⟩ =>
    show win0_3.index t 0 * 10000 ≤ (i 0).val ∧ (i 0).val < win0_3.index t 0 * 10000 + 10000
    rw [e6, ht]; omega
  | ⟨1, _⟩ =>
    show win0_3.index t 1 * 15 ≤ (i 1).val ∧ (i 1).val < win0_3.index t 1 * 15 + 15
    rw [e7]; omega

/-- THE RESULT ARRAY after the region: the dense layer from 128 features to 15 of the arrays the region finds. -/
theorem final0 (c : Dev nD) :
    (dat0 (F := Ideal) V c).arrAt 3 cfg0.N = Cert.GcnSpec.linA (V c main_arg0) (V c main_arg2) (V c main_v31) :=
  (dat0 V c).arrAt_eq_of_cover 3 (Cert.GcnSpec.linA (V c main_arg0) (V c main_arg2) (V c main_v31))
    (fun t _ => flushed0_eq V c t) cover0

end Cert.KernelIdeal.Hand

end
-- ==== Proof.Region1.lean ====
/-
  The first bias-and-rectify region: its output array ends holding the bias-and-rectify layer of the arrays it finds.

  The region runs over ten points; point `t` handles rows `10000 t … 10000 t + 9999` of a 100000 × 15 array. At each
  point the body adds the bias row to every row of the block and takes the maximum with zero: read at an index, the body's
  value is `max (a (p, q) + b (0, q)) 0`. The block written back at point `t` is therefore block `t` of that function of
  the whole arrays; the ten blocks fill the array; so the array ends holding the function.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The body's value at an index: the entry plus the bias row's entry of its column, rectified. -/
theorem payload1_apply (x0 : Vec Ideal S10000x15 .f32) (x1 : Vec Ideal S1x15 .f32) (p : Fin 10000) (q : Fin 15) :
    k1_pay1 x0 x1 (ix2 p q) = max (x0 (ix2 p q) + x1 (ix2 (0 : Fin 1) q)) 0 := by
  unfold k1_pay1
  simp only [shapeCast_self]
  rw [maximumf_apply, addf_apply, broadcast_apply]
  refine congrArg₂ max (congrArg₂ (· + ·) rfl ?_) ?_
  · exact broadcastTo_1b_ab_apply x1 _ p q
  · exact Ideal.ofBits_zero_f32

theorem hz1 : (![0, 0] : Fin 2 → Nat) = fun _ => 0 := funext fun a => by fin_cases a <;> rfl

/-- The printed block index maps, decided over the grid: the row blocks of the input and of the output move with the
    point, the bias row's block is always the first. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The input block at point `t` is rows `10000 t … 10000 t + 9999` of the input array. -/
theorem iblk1_0_apply (c : Dev nD) (t : Fin cfg1.N) (p : Fin 10000) (q : Fin 15) (r : Fin 100000)
    (hr : r.val = 10000 * t.val + p.val) :
    (iblk1 (F := Ideal) V c 0 t : Vec Ideal S10000x15 .f32) (ix2 p q)
      = (V c main_v45 : S100000x15.Idx → Elt Ideal .f32) (ix2 r q) := by
  obtain ⟨e0, e1, -⟩ := idx_facts1 t
  unfold iblk1
  rw [View.read_apply]
  show V c main_v45 _ = V c main_v45 _
  refine congrArg _ ?_
  funext a; apply Fin.ext
  match a with
  | ⟨0, _⟩ => show win1_0.index t 0 * 10000 + 1 * p.val = r.val; rw [e0, hr]; omega
  | ⟨1, _⟩ => show win1_0.index t 1 * 15 + 1 * q.val = q.val; rw [e1]; omega

/-- The bias block at every point is the bias row. -/
theorem iblk1_1_apply (c : Dev nD) (t : Fin cfg1.N) (q : Fin 15) :
    (iblk1 (F := Ideal) V c 1 t : Vec Ideal S1x15 .f32) (ix2 (0 : Fin 1) q)
      = (V c main_v46 : S1x15.Idx → Elt Ideal .f32) (ix2 (0 : Fin 1) q) := by
  obtain ⟨-, -, e2, e3, -⟩ := idx_facts1 t
  unfold iblk1
  rw [View.read_apply]
  show V c main_v46 _ = V c main_v46 _
  refine congrArg _ ?_
  funext a; apply Fin.ext
  match a with
  | ⟨0, _⟩ => show win1_1.index t 0 * 1 + 1 * 0 = 0; rw [e2]
  | ⟨1, _⟩ => show win1_1.index t 1 * 15 + 1 * q.val = q.val; rw [e3]; omega

/-- What point `t` writes back is block `t` of the bias-and-rectify layer of the arrays the region finds. -/
theorem flushed1_eq (c : Dev nD) (t : Fin cfg1.N) :
    (dat1 (F := Ideal) V c).flushed 2 t
      = ((cfg1.win 2).blk t).view.read (Elt Ideal) (Cert.GcnSpec.biasRelu (V c main_v45) (V c main_v46)) := by
  show (cfg1.win 2).cut (grid1.coords t) ((dat1 V c).after 2 t) = _
  rw [after1_2]
  unfold out1_2
  rw [View.canon_unit_zero hz1]
  simp only [View.ld_unit_zero (S := S10000x15) hz1, View.ld_unit_zero (S := S1x15) hz1]
  obtain ⟨-, -, -, -, e4, e5⟩ := idx_facts1 t
  have hN : cfg1.N = 10 := N_1
  refine funext fun (j : S10000x15.Idx) => ?_
  obtain ⟨p, q, rfl⟩ : ∃ (p : Fin 10000) (q : Fin 15), j = ix2 p q := ⟨j 0, j 1, eq_ix2 j⟩
  have hr : 10000 * t.val + p.val < 100000 := by have := t.isLt; have := p.isLt; omega
  have hemb : (((cfg1.win 2).blk t).view.emb (ix2 p q : S10000x15.Idx) : S100000x15.Idx)
      = ix2 (⟨10000 * t.val + p.val, hr⟩ : Fin 100000) q := by
    funext a; apply Fin.ext
    match a with
    | ⟨0, _⟩ => show win1_2.index t 0 * 10000 + 1 * p.val = 10000 * t.val + p.val; rw [e4]; omega
    | ⟨1, _⟩ => show win1_2.index t 1 * 15 + 1 * q.val = q.val; rw [e5]; omega
  show k1_pay1 (iblk1 V c 0 t) (iblk1 V c 1 t) (ix2 p q)
      = Cert.GcnSpec.biasRelu (V c main_v45) (V c main_v46) (((cfg1.win 2).blk t).view.emb (ix2 p q : S10000x15.Idx))
  refine (payload1_apply _ _ p q).trans ?_
  refine Eq.trans ?_ (congrArg (Cert.GcnSpec.biasRelu (V c main_v45) (V c main_v46)) hemb.symm)
  rw [Cert.GcnSpec.biasRelu_apply, iblk1_0_apply V c t p q ⟨_, hr⟩ rfl, iblk1_1_apply V c t q]

/-- An index of the array is in point `t`'s block iff each coordinate is in the block's range on its axis. -/
theorem mem_blk1 (t : Fin cfg1.N) (i : S100000x15.Idx) :
    i ∈ ((cfg1.win 2).blk t).view.set ↔ ∀ a : Fin 2, win1_2.index t a * S10000x15.size a ≤ (i a).val
      ∧ (i a).val < win1_2.index t a * S10000x15.size a + S10000x15.size a := by
  show i ∈ ((View.whole main_v47).slice (win1_2.rect t)).set ↔ _
  rw [View.set_slice_whole, Rect.mem_set_unit]
  exact Iff.rfl

/-- The ten row blocks fill the array: row `r` is in the block of point `r / 10000`, and every point writes back. -/
theorem cover1 (i : S100000x15.Idx) :
    ∃ t : Fin cfg1.N, (cfg1.win 2).flush t = true ∧ i ∈ ((cfg1.win 2).blk t).view.set := by
  have hN : cfg1.N = 10 := N_1
  have hi0 : (i 0).val < 100000 := (i 0).isLt
  have hi1 : (i 1).val < 15 := (i 1).isLt
  obtain ⟨t, ht⟩ : ∃ t : Fin cfg1.N, t.val = (i 0).val / 10000 := ⟨⟨(i 0).val / 10000, by rw [hN]; omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e4]; omega
  | ⟨1, _⟩ =>
    show win1_2.index t (1 : Fin 2) * 15 ≤ (i 1).val ∧ (i 1).val < win1_2.index t (1 : Fin 2) * 15 + 15
    rw [e5]; omega

/-- The output array after the region: the bias-and-rectify layer of the input array and the bias row it found. -/
theorem final1 (c : Dev nD) :
    (dat1 (F := Ideal) V c).arrAt 2 cfg1.N = Cert.GcnSpec.biasRelu (V c main_v45) (V c main_v46) :=
  (dat1 V c).arrAt_eq_of_cover 2 (Cert.GcnSpec.biasRelu (V c main_v45) (V c main_v46))
    (fun t _ => flushed1_eq V c t) cover1

end Cert.KernelIdeal.Hand

end
-- ==== Proof.Region2.lean ====
/-
  A dense layer from 15 features to 15, as the kernel computes it: ten grid points, each taking a block of 10000 rows
  of the 100000-row feature array, the whole 15 × 15 weight array and the whole bias row, and writing the block of
  10000 rows of the result. Entry (p, q) of the block a point writes is the sum over the 15 features of row p of its
  block of rows times column q of the weights, plus entry q of the bias row; the ten blocks tile the result array,
  which therefore ends holding the dense layer of the arrays the region finds.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at one entry of a block -/

/-- The row coordinate of the left operand's index is the output's row. -/
theorem lhs2_row (i : S10000x15.Idx) (q : dot_S10000x15_S15x15_S10000x15_1_0_0_1_n_n.contr.Idx) :
    (dot_S10000x15_S15x15_S10000x15_1_0_0_1_n_n.lhsIdx i q 0).val = (i 0).val := by
  unfold DotDims.lhsIdx
  rw [dif_neg (show ¬(0 : Fin S10000x15.rank) ∈ dot_S10000x15_S15x15_S10000x15_1_0_0_1_n_n.lhsBatch by decide), dif_pos (show (0 : Fin S10000x15.rank) ∈ dot_S10000x15_S15x15_S10000x15_1_0_0_1_n_n.lhsNonContracting by decide)]
  rfl
/-- Its column coordinate is the contracted coordinate. -/
theorem lhs2_col (i : S10000x15.Idx) (q : dot_S10000x15_S15x15_S10000x15_1_0_0_1_n_n.contr.Idx) :
    (dot_S10000x15_S15x15_S10000x15_1_0_0_1_n_n.lhsIdx i q 1).val = (q ⟨0, by decide⟩).val :=
  dot_S10000x15_S15x15_S10000x15_1_0_0_1_n_n.lhsIdx_val_of_single rfl i q
/-- The row coordinate of the right operand's index is the contracted coordinate. -/
theorem rhs2_row (i : S10000x15.Idx) (q : dot_S10000x15_S15x15_S10000x15_1_0_0_1_n_n.contr.Idx) :
    (dot_S10000x15_S15x15_S10000x15_1_0_0_1_n_n.rhsIdx i q 0).val = (q ⟨0, by decide⟩).val :=
  dot_S10000x15_S15x15_S10000x15_1_0_0_1_n_n.rhsIdx_val_of_single rfl i q
/-- Its column coordinate is the output's column. -/
theorem rhs2_col (i : S10000x15.Idx) (q : dot_S10000x15_S15x15_S10000x15_1_0_0_1_n_n.contr.Idx) :
    (dot_S10000x15_S15x15_S10000x15_1_0_0_1_n_n.rhsIdx i q 1).val = (i 1).val := by
  unfold DotDims.rhsIdx
  rw [dif_neg (show ¬(1 : Fin S15x15.rank) ∈ dot_S10000x15_S15x15_S10000x15_1_0_0_1_n_n.rhsBatch by decide), dif_pos (show (1 : Fin S15x15.rank) ∈ dot_S10000x15_S15x15_S10000x15_1_0_0_1_n_n.rhsNonContracting by decide)]
  rfl

/-- The product of a block of rows with the weights, read at row `p` and column `q`: the sum over the 15 features. -/
theorem matmul2_apply (x0 : FVec Ideal S10000x15 .bf16) (x1 : FVec Ideal S15x15 .bf16) (p : Fin 10000) (q : Fin 15) :
    matmul dot_S10000x15_S15x15_S10000x15_1_0_0_1_n_n none x0 x1 (constant S10000x15 .f32 0x00000000#32) (ix2 p q)
      = ∑ k : Fin 15, x0 (ix2 p k) * x1 (ix2 k q) := by
  refine (Ideal.matmul_constant_zero_apply dot_S10000x15_S15x15_S10000x15_1_0_0_1_n_n none x0 x1 (ix2 p q)).trans ?_
  rw [← Equiv.sum_comp (ValueIdx.contrEquiv1 dot_S10000x15_S15x15_S10000x15_1_0_0_1_n_n 15 rfl rfl).symm]
  refine Finset.sum_congr rfl fun k _ => ?_
  have hk := ValueIdx.contrEquiv1_symm_val dot_S10000x15_S15x15_S10000x15_1_0_0_1_n_n 15 rfl rfl k
  have el : dot_S10000x15_S15x15_S10000x15_1_0_0_1_n_n.lhsIdx (ix2 p q) ((ValueIdx.contrEquiv1 dot_S10000x15_S15x15_S10000x15_1_0_0_1_n_n 15 rfl rfl).symm k) = ix2 p k := funext fun a => Fin.ext (by
    match a with
    | ⟨0, _⟩ => exact lhs2_row _ _
    | ⟨1, _⟩ => exact (lhs2_col _ _).trans hk)
  have er : dot_S10000x15_S15x15_S10000x15_1_0_0_1_n_n.rhsIdx (ix2 p q) ((ValueIdx.contrEquiv1 dot_S10000x15_S15x15_S10000x15_1_0_0_1_n_n 15 rfl rfl).symm k) = ix2 k q := funext fun a => Fin.ext (by
    match a with
    | ⟨0, _⟩ => exact (rhs2_row _ _).trans hk
    | ⟨1, _⟩ => exact rhs2_col _ _)
  rw [el, er]

/-- What the body stores at row `p`, column `q` of its block: the row of features times the weights' column, plus the bias. -/
theorem payload2_apply (x0 : Vec Ideal S10000x15 .f32) (x1 : Vec Ideal S15x15 .f32) (x2 : Vec Ideal S1x15 .f32) (p : Fin 10000) (q : Fin 15) :
    k2_pay1 x0 x1 x2 (ix2 p q) = (∑ k : Fin 15, x0 (ix2 p k) * x1 (ix2 k q)) + x2 (ix2 (0 : Fin 1) q) := by
  unfold k2_pay1
  refine (addf_apply _ _ (ix2 p q)).trans ?_
  refine congrArg₂ (· + ·) ?_ ?_
  · refine (matmul2_apply _ _ p q).trans ?_
    refine Finset.sum_congr rfl fun k _ => ?_
    refine congrArg₂ (· * ·) ?_ rfl
    exact congrFun (shapeCast_self x0 shapeCasts_S10000x15_S10000x15) (ix2 p k)
  · refine (broadcastTo_1b_ab_apply _ broadcasts_S1x15_S10000x15 p q).trans ?_
    rw [shapeCast_self]

/-! ## The blocks of the four windows -/

variable (V : (c : Dev nD) → (b : Ref sig .tc) → Buf (Elt Ideal) ((c : Thread nD τ).loc b))

theorem hz2 : (![0, 0] : Fin 2 → Nat) = fun _ => 0 := funext fun a => by fin_cases a <;> rfl

/-- Which block of its array each window holds at grid point `t`: the rows' block and the result's block are block `t`
    along the rows; the weights and the bias row are always their one whole block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- There are ten grid points. -/
theorem lt_ten2 (t : Fin cfg2.N) : t.val < 10 :=
  Nat.lt_of_lt_of_eq t.isLt (show cfg2.N = 10 from N_2)

/-- Entry `(p, k)` of the block of rows at point `t` is entry `(10000 t + p, k)` of the array of rows. -/
theorem iblk2_0_apply (c : Dev nD) (t : Fin cfg2.N) (p : Fin 10000) (k : Fin 15) (h : 10000 * t.val + p.val < 100000) :
    (iblk2 (F := Ideal) V c 0 t : Vec Ideal S10000x15 .f32) (ix2 p k)
      = (V c main_v47 : S100000x15.Idx → Elt Ideal .f32) (ix2 ⟨10000 * t.val + p.val, h⟩ k) := by
  obtain ⟨e0, e1, -⟩ := idx_facts2 t
  unfold iblk2
  rw [View.read_apply]
  show V c main_v47 _ = V c main_v47 _
  congr 1
  funext a
  apply Fin.ext
  match a with
  | ⟨0, _⟩ => show win2_0.index t 0 * 10000 + 1 * p.val = 10000 * t.val + p.val; rw [e0]; omega
  | ⟨1, _⟩ => show win2_0.index t 1 * 15 + 1 * k.val = k.val; rw [e1]; omega

/-- The weights' block at every point is the whole array of weights. -/
theorem iblk2_1_apply (c : Dev nD) (t : Fin cfg2.N) (k : Fin 15) (q : Fin 15) :
    (iblk2 (F := Ideal) V c 1 t : Vec Ideal S15x15 .f32) (ix2 k q)
      = (V c main_arg4 : S15x15.Idx → Elt Ideal .f32) (ix2 k q) := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t 0 * 15 + 1 * k.val = k.val; rw [e2]; omega
  | ⟨1, _⟩ => show win2_1.index t 1 * 15 + 1 * q.val = q.val; rw [e3]; omega

/-- The bias block at every point is the whole bias row. -/
theorem iblk2_2_apply (c : Dev nD) (t : Fin cfg2.N) (q : Fin 15) :
    (iblk2 (F := Ideal) V c 2 t : Vec Ideal S1x15 .f32) (ix2 (0 : Fin 1) q)
      = (V c main_v48 : S1x15.Idx → Elt Ideal .f32) (ix2 (0 : Fin 1) q) := by
  obtain ⟨-, -, -, -, e4, e5, -⟩ := idx_facts2 t
  unfold iblk2
  rw [View.read_apply]
  show V c main_v48 _ = V c main_v48 _
  congr 1
  funext a
  apply Fin.ext
  match a with
  | ⟨0, _⟩ => show win2_2.index t 0 * 1 + 1 * 0 = 0; rw [e4]
  | ⟨1, _⟩ => show win2_2.index t 1 * 15 + 1 * q.val = q.val; rw [e5]; omega

/-- Entry `(p, q)` of the result's block at point `t` sits at `(10000 t + p, q)` in the result array. -/
theorem emb2_3 (t : Fin cfg2.N) (p : Fin 10000) (q : Fin 15) (h : 10000 * t.val + p.val < 100000) :
    ((cfg2.win 3).blk t).view.emb (ix2 p q) = (ix2 ⟨10000 * t.val + p.val, h⟩ q : S100000x15.Idx) := by
  obtain ⟨-, -, -, -, -, -, e6, e7⟩ := idx_facts2 t
  funext a
  apply Fin.ext
  match a with
  | ⟨0, _⟩ => show win2_3.index t 0 * 10000 + 1 * p.val = 10000 * t.val + p.val; rw [e6]; omega
  | ⟨1, _⟩ => show win2_3.index t 1 * 15 + 1 * q.val = q.val; rw [e7]; omega

/-- What the body leaves at entry `(p, q)` of its block at point `t` is the dense layer at row `10000 t + p`, column `q`:
    it depends on row `10000 t + p` of the features, column `q` of the weights and entry `q` of the bias row. -/
theorem entry2 (c : Dev nD) (t : Fin cfg2.N) (p : Fin 10000) (q : Fin 15) (h : 10000 * t.val + p.val < 100000) :
    k2_pay1 (F := Ideal) (iblk2 V c 0 t) (iblk2 V c 1 t) (iblk2 V c 2 t) (ix2 p q)
      = Cert.GcnSpec.linB (V c main_v47) (V c main_arg4) (V c main_v48) (ix2 ⟨10000 * t.val + p.val, h⟩ q) := by
  rw [Cert.GcnSpec.linB_apply]
  refine (payload2_apply _ _ _ p q).trans ?_
  refine congrArg₂ (· + ·) (Finset.sum_congr rfl fun k _ => ?_) ?_
  · exact congrArg₂ (· * ·) (iblk2_0_apply V c t p k h) (iblk2_1_apply V c t k q)
  · exact iblk2_2_apply V c t q

/-- The same at any index of the block, the array's index named by the block's place in the array. -/
theorem entry2_emb (c : Dev nD) (t : Fin cfg2.N) (j : S10000x15.Idx) :
    k2_pay1 (F := Ideal) (iblk2 V c 0 t) (iblk2 V c 1 t) (iblk2 V c 2 t) j
      = Cert.GcnSpec.linB (V c main_v47) (V c main_arg4) (V c main_v48) (((cfg2.win 3).blk t).view.emb j) := by
  obtain ⟨p, q, rfl⟩ : ∃ (p : Fin 10000) (q : Fin 15), j = ix2 p q := ⟨j 0, j 1, eq_ix2 j⟩
  have ht := lt_ten2 t
  have hp := p.isLt
  have h : 10000 * t.val + p.val < 100000 := by omega
  rw [emb2_3 t p q h]
  exact entry2 V c t p q h

/-- WHAT POINT `t` WRITES BACK is block `t` of the dense layer of the arrays the region finds. -/
theorem flushed2_eq (c : Dev nD) (t : Fin cfg2.N) :
    (dat2 (F := Ideal) V c).flushed 3 t
      = ((cfg2.win 3).blk t).view.read (Elt Ideal) (Cert.GcnSpec.linB (V c main_v47) (V c main_arg4) (V c main_v48)) := by
  show (cfg2.win 3).cut (grid2.coords t) ((dat2 V c).after 3 t) = _
  rw [after2_3]
  unfold out2_3
  rw [View.canon_unit_zero hz2]
  simp only [View.ld_unit_zero (S := S10000x15) hz2, View.ld_unit_zero (S := S15x15) hz2, View.ld_unit_zero (S := S1x15) hz2]
  funext j
  exact entry2_emb V c t j

/-! ## From the blocks to the array -/

/-- An index of the result array is in point `t`'s block iff each coordinate is in the block's range on its axis. -/
theorem mem_blk2 (t : Fin cfg2.N) (i : S100000x15.Idx) :
    i ∈ ((cfg2.win 3).blk t).view.set ↔ ∀ a : Fin 2, win2_3.index t a * S10000x15.size a ≤ (i a).val ∧ (i a).val < win2_3.index t a * S10000x15.size a + S10000x15.size a := by
  show i ∈ ((View.whole main_v49).slice (win2_3.rect t)).set ↔ _
  rw [View.set_slice_whole, Rect.mem_set_unit]
  exact Iff.rfl

/-- Row `r` of the result array is in the block of point `r / 10000`: the ten blocks of 10000 rows tile the 100000 rows. -/
theorem cover2 (i : S100000x15.Idx) :
    ∃ t : Fin cfg2.N, (cfg2.win 3).flush t = true ∧ i ∈ ((cfg2.win 3).blk t).view.set := by
  have hN : grid2.N = 10 := N_2
  have hi0 : (i 0).val < 100000 := (i 0).isLt
  have hi1 : (i 1).val < 15 := (i 1).isLt
  obtain ⟨t, ht⟩ : ∃ t : Fin cfg2.N, t.val = (i 0).val / 10000 :=
    ⟨⟨(i 0).val / 10000, by show (i 0).val / 10000 < grid2.N; omega⟩, rfl⟩
  obtain ⟨-, -, -, -, -, -, e6, e7⟩ := idx_facts2 t
  refine ⟨t, flush2_3 t, ?_⟩
  rw [mem_blk2]
  intro a
  match a with
  | ⟨0, _⟩ =>
    show win2_3.index t 0 * 10000 ≤ (i 0).val ∧ (i 0).val < win2_3.index t 0 * 10000 + 10000
    rw [e6, ht]; omega
  | ⟨1, _⟩ =>
    show win2_3.index t 1 * 15 ≤ (i 1).val ∧ (i 1).val < win2_3.index t 1 * 15 + 15
    rw [e7]; omega

/-- THE RESULT ARRAY after the region: the dense layer from 15 features to 15 of the arrays the region finds. -/
theorem final2 (c : Dev nD) :
    (dat2 (F := Ideal) V c).arrAt 3 cfg2.N = Cert.GcnSpec.linB (V c main_v47) (V c main_arg4) (V c main_v48) :=
  (dat2 V c).arrAt_eq_of_cover 3 (Cert.GcnSpec.linB (V c main_v47) (V c main_arg4) (V c main_v48))
    (fun t _ => flushed2_eq V c t) cover2

end Cert.KernelIdeal.Hand

end
-- ==== Proof.Region3.lean ====
/-
  The second bias-and-rectify region: its output array ends holding the bias-and-rectify layer of the arrays it finds.

  The region runs over ten points; point `t` handles rows `10000 t … 10000 t + 9999` of a 100000 × 15 array. At each
  point the body adds the bias row to every row of the block and takes the maximum with zero: read at an index, the body's
  value is `max (a (p, q) + b (0, q)) 0`. The block written back at point `t` is therefore block `t` of that function of
  the whole arrays; the ten blocks fill the array; so the array ends holding the function.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The body's value at an index: the entry plus the bias row's entry of its column, rectified. -/
theorem payload3_apply (x0 : Vec Ideal S10000x15 .f32) (x1 : Vec Ideal S1x15 .f32) (p : Fin 10000) (q : Fin 15) :
    k3_pay1 x0 x1 (ix2 p q) = max (x0 (ix2 p q) + x1 (ix2 (0 : Fin 1) q)) 0 := by
  unfold k3_pay1
  simp only [shapeCast_self]
  rw [maximumf_apply, addf_apply, broadcast_apply]
  refine congrArg₂ max (congrArg₂ (· + ·) rfl ?_) ?_
  · exact broadcastTo_1b_ab_apply x1 _ p q
  · exact Ideal.ofBits_zero_f32

theorem hz3 : (![0, 0] : Fin 2 → Nat) = fun _ => 0 := funext fun a => by fin_cases a <;> rfl

/-- The printed block index maps, decided over the grid: the row blocks of the input and of the output move with the
    point, the bias row's block is always the first. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The input block at point `t` is rows `10000 t … 10000 t + 9999` of the input array. -/
theorem iblk3_0_apply (c : Dev nD) (t : Fin cfg3.N) (p : Fin 10000) (q : Fin 15) (r : Fin 100000)
    (hr : r.val = 10000 * t.val + p.val) :
    (iblk3 (F := Ideal) V c 0 t : Vec Ideal S10000x15 .f32) (ix2 p q)
      = (V c main_v62 : S100000x15.Idx → Elt Ideal .f32) (ix2 r q) := by
  obtain ⟨e0, e1, -⟩ := idx_facts3 t
  unfold iblk3
  rw [View.read_apply]
  show V c main_v62 _ = V c main_v62 _
  refine congrArg _ ?_
  funext a; apply Fin.ext
  match a with
  | ⟨0, _⟩ => show win3_0.index t 0 * 10000 + 1 * p.val = r.val; rw [e0, hr]; omega
  | ⟨1, _⟩ => show win3_0.index t 1 * 15 + 1 * q.val = q.val; rw [e1]; omega

/-- The bias block at every point is the bias row. -/
theorem iblk3_1_apply (c : Dev nD) (t : Fin cfg3.N) (q : Fin 15) :
    (iblk3 (F := Ideal) V c 1 t : Vec Ideal S1x15 .f32) (ix2 (0 : Fin 1) q)
      = (V c main_v63 : S1x15.Idx → Elt Ideal .f32) (ix2 (0 : Fin 1) q) := by
  obtain ⟨-, -, e2, e3, -⟩ := idx_facts3 t
  unfold iblk3
  rw [View.read_apply]
  show V c main_v63 _ = V c main_v63 _
  refine congrArg _ ?_
  funext a; apply Fin.ext
  match a with
  | ⟨0, _⟩ => show win3_1.index t 0 * 1 + 1 * 0 = 0; rw [e2]
  | ⟨1, _⟩ => show win3_1.index t 1 * 15 + 1 * q.val = q.val; rw [e3]; omega

/-- What point `t` writes back is block `t` of the bias-and-rectify layer of the arrays the region finds. -/
theorem flushed3_eq (c : Dev nD) (t : Fin cfg3.N) :
    (dat3 (F := Ideal) V c).flushed 2 t
      = ((cfg3.win 2).blk t).view.read (Elt Ideal) (Cert.GcnSpec.biasRelu (V c main_v62) (V c main_v63)) := by
  show (cfg3.win 2).cut (grid3.coords t) ((dat3 V c).after 2 t) = _
  rw [after3_2]
  unfold out3_2
  rw [View.canon_unit_zero hz3]
  simp only [View.ld_unit_zero (S := S10000x15) hz3, View.ld_unit_zero (S := S1x15) hz3]
  obtain ⟨-, -, -, -, e4, e5⟩ := idx_facts3 t
  have hN : cfg3.N = 10 := N_3
  refine funext fun (j : S10000x15.Idx) => ?_
  obtain ⟨p, q, rfl⟩ : ∃ (p : Fin 10000) (q : Fin 15), j = ix2 p q := ⟨j 0, j 1, eq_ix2 j⟩
  have hr : 10000 * t.val + p.val < 100000 := by have := t.isLt; have := p.isLt; omega
  have hemb : (((cfg3.win 2).blk t).view.emb (ix2 p q : S10000x15.Idx) : S100000x15.Idx)
      = ix2 (⟨10000 * t.val + p.val, hr⟩ : Fin 100000) q := by
    funext a; apply Fin.ext
    match a with
    | ⟨0, _⟩ => show win3_2.index t 0 * 10000 + 1 * p.val = 10000 * t.val + p.val; rw [e4]; omega
    | ⟨1, _⟩ => show win3_2.index t 1 * 15 + 1 * q.val = q.val; rw [e5]; omega
  show k3_pay1 (iblk3 V c 0 t) (iblk3 V c 1 t) (ix2 p q)
      = Cert.GcnSpec.biasRelu (V c main_v62) (V c main_v63) (((cfg3.win 2).blk t).view.emb (ix2 p q : S10000x15.Idx))
  refine (payload3_apply _ _ p q).trans ?_
  refine Eq.trans ?_ (congrArg (Cert.GcnSpec.biasRelu (V c main_v62) (V c main_v63)) hemb.symm)
  rw [Cert.GcnSpec.biasRelu_apply, iblk3_0_apply V c t p q ⟨_, hr⟩ rfl, iblk3_1_apply V c t q]

/-- An index of the array is in point `t`'s block iff each coordinate is in the block's range on its axis. -/
theorem mem_blk3 (t : Fin cfg3.N) (i : S100000x15.Idx) :
    i ∈ ((cfg3.win 2).blk t).view.set ↔ ∀ a : Fin 2, win3_2.index t a * S10000x15.size a ≤ (i a).val
      ∧ (i a).val < win3_2.index t a * S10000x15.size a + S10000x15.size a := by
  show i ∈ ((View.whole main_v64).slice (win3_2.rect t)).set ↔ _
  rw [View.set_slice_whole, Rect.mem_set_unit]
  exact Iff.rfl

/-- The ten row blocks fill the array: row `r` is in the block of point `r / 10000`, and every point writes back. -/
theorem cover3 (i : S100000x15.Idx) :
    ∃ t : Fin cfg3.N, (cfg3.win 2).flush t = true ∧ i ∈ ((cfg3.win 2).blk t).view.set := by
  have hN : cfg3.N = 10 := N_3
  have hi0 : (i 0).val < 100000 := (i 0).isLt
  have hi1 : (i 1).val < 15 := (i 1).isLt
  obtain ⟨t, ht⟩ : ∃ t : Fin cfg3.N, t.val = (i 0).val / 10000 := ⟨⟨(i 0).val / 10000, by rw [hN]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    rw [e4]; omega
  | ⟨1, _⟩ =>
    show win3_2.index t (1 : Fin 2) * 15 ≤ (i 1).val ∧ (i 1).val < win3_2.index t (1 : Fin 2) * 15 + 15
    rw [e5]; omega

/-- The output array after the region: the bias-and-rectify layer of the input array and the bias row it found. -/
theorem final3 (c : Dev nD) :
    (dat3 (F := Ideal) V c).arrAt 2 cfg3.N = Cert.GcnSpec.biasRelu (V c main_v62) (V c main_v63) :=
  (dat3 V c).arrAt_eq_of_cover 2 (Cert.GcnSpec.biasRelu (V c main_v62) (V c main_v63))
    (fun t _ => flushed3_eq V c t) cover3

end Cert.KernelIdeal.Hand

end
-- ==== Proof.Region4.lean ====
/-
  A dense layer from 15 features to 15, as the kernel computes it: ten grid points, each taking a block of 10000 rows
  of the 100000-row feature array, the whole 15 × 15 weight array and the whole bias row, and writing the block of
  10000 rows of the result. Entry (p, q) of the block a point writes is the sum over the 15 features of row p of its
  block of rows times column q of the weights, plus entry q of the bias row; the ten blocks tile the result array,
  which therefore ends holding the dense layer of the arrays the region finds.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at one entry of a block -/

/-- The row coordinate of the left operand's index is the output's row. -/
theorem lhs4_row (i : S10000x15.Idx) (q : dot_S10000x15_S15x15_S10000x15_1_0_0_1_n_n.contr.Idx) :
    (dot_S10000x15_S15x15_S10000x15_1_0_0_1_n_n.lhsIdx i q 0).val = (i 0).val := by
  unfold DotDims.lhsIdx
  rw [dif_neg (show ¬(0 : Fin S10000x15.rank) ∈ dot_S10000x15_S15x15_S10000x15_1_0_0_1_n_n.lhsBatch by decide), dif_pos (show (0 : Fin S10000x15.rank) ∈ dot_S10000x15_S15x15_S10000x15_1_0_0_1_n_n.lhsNonContracting by decide)]
  rfl
/-- Its column coordinate is the contracted coordinate. -/
theorem lhs4_col (i : S10000x15.Idx) (q : dot_S10000x15_S15x15_S10000x15_1_0_0_1_n_n.contr.Idx) :
    (dot_S10000x15_S15x15_S10000x15_1_0_0_1_n_n.lhsIdx i q 1).val = (q ⟨0, by decide⟩).val :=
  dot_S10000x15_S15x15_S10000x15_1_0_0_1_n_n.lhsIdx_val_of_single rfl i q
/-- The row coordinate of the right operand's index is the contracted coordinate. -/
theorem rhs4_row (i : S10000x15.Idx) (q : dot_S10000x15_S15x15_S10000x15_1_0_0_1_n_n.contr.Idx) :
    (dot_S10000x15_S15x15_S10000x15_1_0_0_1_n_n.rhsIdx i q 0).val = (q ⟨0, by decide⟩).val :=
  dot_S10000x15_S15x15_S10000x15_1_0_0_1_n_n.rhsIdx_val_of_single rfl i q
/-- Its column coordinate is the output's column. -/
theorem rhs4_col (i : S10000x15.Idx) (q : dot_S10000x15_S15x15_S10000x15_1_0_0_1_n_n.contr.Idx) :
    (dot_S10000x15_S15x15_S10000x15_1_0_0_1_n_n.rhsIdx i q 1).val = (i 1).val := by
  unfold DotDims.rhsIdx
  rw [dif_neg (show ¬(1 : Fin S15x15.rank) ∈ dot_S10000x15_S15x15_S10000x15_1_0_0_1_n_n.rhsBatch by decide), dif_pos (show (1 : Fin S15x15.rank) ∈ dot_S10000x15_S15x15_S10000x15_1_0_0_1_n_n.rhsNonContracting by decide)]
  rfl

/-- The product of a block of rows with the weights, read at row `p` and column `q`: the sum over the 15 features. -/
theorem matmul4_apply (x0 : FVec Ideal S10000x15 .bf16) (x1 : FVec Ideal S15x15 .bf16) (p : Fin 10000) (q : Fin 15) :
    matmul dot_S10000x15_S15x15_S10000x15_1_0_0_1_n_n none x0 x1 (constant S10000x15 .f32 0x00000000#32) (ix2 p q)
      = ∑ k : Fin 15, x0 (ix2 p k) * x1 (ix2 k q) := by
  refine (Ideal.matmul_constant_zero_apply dot_S10000x15_S15x15_S10000x15_1_0_0_1_n_n none x0 x1 (ix2 p q)).trans ?_
  rw [← Equiv.sum_comp (ValueIdx.contrEquiv1 dot_S10000x15_S15x15_S10000x15_1_0_0_1_n_n 15 rfl rfl).symm]
  refine Finset.sum_congr rfl fun k _ => ?_
  have hk := ValueIdx.contrEquiv1_symm_val dot_S10000x15_S15x15_S10000x15_1_0_0_1_n_n 15 rfl rfl k
  have el : dot_S10000x15_S15x15_S10000x15_1_0_0_1_n_n.lhsIdx (ix2 p q) ((ValueIdx.contrEquiv1 dot_S10000x15_S15x15_S10000x15_1_0_0_1_n_n 15 rfl rfl).symm k) = ix2 p k := funext fun a => Fin.ext (by
    match a with
    | ⟨0, _⟩ => exact lhs4_row _ _
    | ⟨1, _⟩ => exact (lhs4_col _ _).trans hk)
  have er : dot_S10000x15_S15x15_S10000x15_1_0_0_1_n_n.rhsIdx (ix2 p q) ((ValueIdx.contrEquiv1 dot_S10000x15_S15x15_S10000x15_1_0_0_1_n_n 15 rfl rfl).symm k) = ix2 k q := funext fun a => Fin.ext (by
    match a with
    | ⟨0, _⟩ => exact (rhs4_row _ _).trans hk
    | ⟨1, _⟩ => exact rhs4_col _ _)
  rw [el, er]

/-- What the body stores at row `p`, column `q` of its block: the row of features times the weights' column, plus the bias. -/
theorem payload4_apply (x0 : Vec Ideal S10000x15 .f32) (x1 : Vec Ideal S15x15 .f32) (x2 : Vec Ideal S1x15 .f32) (p : Fin 10000) (q : Fin 15) :
    k4_pay1 x0 x1 x2 (ix2 p q) = (∑ k : Fin 15, x0 (ix2 p k) * x1 (ix2 k q)) + x2 (ix2 (0 : Fin 1) q) := by
  unfold k4_pay1
  refine (addf_apply _ _ (ix2 p q)).trans ?_
  refine congrArg₂ (· + ·) ?_ ?_
  · refine (matmul4_apply _ _ p q).trans ?_
    refine Finset.sum_congr rfl fun k _ => ?_
    refine congrArg₂ (· * ·) ?_ rfl
    exact congrFun (shapeCast_self x0 shapeCasts_S10000x15_S10000x15) (ix2 p k)
  · refine (broadcastTo_1b_ab_apply _ broadcasts_S1x15_S10000x15 p q).trans ?_
    rw [shapeCast_self]

/-! ## The blocks of the four windows -/

variable (V : (c : Dev nD) → (b : Ref sig .tc) → Buf (Elt Ideal) ((c : Thread nD τ).loc b))

theorem hz4 : (![0, 0] : Fin 2 → Nat) = fun _ => 0 := funext fun a => by fin_cases a <;> rfl

/-- Which block of its array each window holds at grid point `t`: the rows' block and the result's block are block `t`
    along the rows; the weights and the bias row are always their one whole block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- There are ten grid points. -/
theorem lt_ten4 (t : Fin cfg4.N) : t.val < 10 :=
  Nat.lt_of_lt_of_eq t.isLt (show cfg4.N = 10 from N_4)

/-- Entry `(p, k)` of the block of rows at point `t` is entry `(10000 t + p, k)` of the array of rows. -/
theorem iblk4_0_apply (c : Dev nD) (t : Fin cfg4.N) (p : Fin 10000) (k : Fin 15) (h : 10000 * t.val + p.val < 100000) :
    (iblk4 (F := Ideal) V c 0 t : Vec Ideal S10000x15 .f32) (ix2 p k)
      = (V c main_v64 : S100000x15.Idx → Elt Ideal .f32) (ix2 ⟨10000 * t.val + p.val, h⟩ k) := by
  obtain ⟨e0, e1, -⟩ := idx_facts4 t
  unfold iblk4
  rw [View.read_apply]
  show V c main_v64 _ = V c main_v64 _
  congr 1
  funext a
  apply Fin.ext
  match a with
  | ⟨0, _⟩ => show win4_0.index t 0 * 10000 + 1 * p.val = 10000 * t.val + p.val; rw [e0]; omega
  | ⟨1, _⟩ => show win4_0.index t 1 * 15 + 1 * k.val = k.val; rw [e1]; omega

/-- The weights' block at every point is the whole array of weights. -/
theorem iblk4_1_apply (c : Dev nD) (t : Fin cfg4.N) (k : Fin 15) (q : Fin 15) :
    (iblk4 (F := Ideal) V c 1 t : Vec Ideal S15x15 .f32) (ix2 k q)
      = (V c main_arg6 : S15x15.Idx → Elt Ideal .f32) (ix2 k q) := by
  obtain ⟨-, -, e2, e3, -⟩ := idx_facts4 t
  unfold iblk4
  rw [View.read_apply]
  show V c main_arg6 _ = V c main_arg6 _
  congr 1
  funext a
  apply Fin.ext
  match a with
  | ⟨0, _⟩ => show win4_1.index t 0 * 15 + 1 * k.val = k.val; rw [e2]; omega
  | ⟨1, _⟩ => show win4_1.index t 1 * 15 + 1 * q.val = q.val; rw [e3]; omega

/-- The bias block at every point is the whole bias row. -/
theorem iblk4_2_apply (c : Dev nD) (t : Fin cfg4.N) (q : Fin 15) :
    (iblk4 (F := Ideal) V c 2 t : Vec Ideal S1x15 .f32) (ix2 (0 : Fin 1) q)
      = (V c main_v65 : S1x15.Idx → Elt Ideal .f32) (ix2 (0 : Fin 1) q) := by
  obtain ⟨-, -, -, -, e4, e5, -⟩ := idx_facts4 t
  unfold iblk4
  rw [View.read_apply]
  show V c main_v65 _ = V c main_v65 _
  congr 1
  funext a
  apply Fin.ext
  match a with
  | ⟨0, _⟩ => show win4_2.index t 0 * 1 + 1 * 0 = 0; rw [e4]
  | ⟨1, _⟩ => show win4_2.index t 1 * 15 + 1 * q.val = q.val; rw [e5]; omega

/-- Entry `(p, q)` of the result's block at point `t` sits at `(10000 t + p, q)` in the result array. -/
theorem emb4_3 (t : Fin cfg4.N) (p : Fin 10000) (q : Fin 15) (h : 10000 * t.val + p.val < 100000) :
    ((cfg4.win 3).blk t).view.emb (ix2 p q) = (ix2 ⟨10000 * t.val + p.val, h⟩ q : S100000x15.Idx) := by
  obtain ⟨-, -, -, -, -, -, e6, e7⟩ := idx_facts4 t
  funext a
  apply Fin.ext
  match a with
  | ⟨0, _⟩ => show win4_3.index t 0 * 10000 + 1 * p.val = 10000 * t.val + p.val; rw [e6]; omega
  | ⟨1, _⟩ => show win4_3.index t 1 * 15 + 1 * q.val = q.val; rw [e7]; omega

/-- What the body leaves at entry `(p, q)` of its block at point `t` is the dense layer at row `10000 t + p`, column `q`:
    it depends on row `10000 t + p` of the features, column `q` of the weights and entry `q` of the bias row. -/
theorem entry4 (c : Dev nD) (t : Fin cfg4.N) (p : Fin 10000) (q : Fin 15) (h : 10000 * t.val + p.val < 100000) :
    k4_pay1 (F := Ideal) (iblk4 V c 0 t) (iblk4 V c 1 t) (iblk4 V c 2 t) (ix2 p q)
      = Cert.GcnSpec.linB (V c main_v64) (V c main_arg6) (V c main_v65) (ix2 ⟨10000 * t.val + p.val, h⟩ q) := by
  rw [Cert.GcnSpec.linB_apply]
  refine (payload4_apply _ _ _ p q).trans ?_
  refine congrArg₂ (· + ·) (Finset.sum_congr rfl fun k _ => ?_) ?_
  · exact congrArg₂ (· * ·) (iblk4_0_apply V c t p k h) (iblk4_1_apply V c t k q)
  · exact iblk4_2_apply V c t q

/-- The same at any index of the block, the array's index named by the block's place in the array. -/
theorem entry4_emb (c : Dev nD) (t : Fin cfg4.N) (j : S10000x15.Idx) :
    k4_pay1 (F := Ideal) (iblk4 V c 0 t) (iblk4 V c 1 t) (iblk4 V c 2 t) j
      = Cert.GcnSpec.linB (V c main_v64) (V c main_arg6) (V c main_v65) (((cfg4.win 3).blk t).view.emb j) := by
  obtain ⟨p, q, rfl⟩ : ∃ (p : Fin 10000) (q : Fin 15), j = ix2 p q := ⟨j 0, j 1, eq_ix2 j⟩
  have ht := lt_ten4 t
  have hp := p.isLt
  have h : 10000 * t.val + p.val < 100000 := by omega
  rw [emb4_3 t p q h]
  exact entry4 V c t p q h

/-- WHAT POINT `t` WRITES BACK is block `t` of the dense layer of the arrays the region finds. -/
theorem flushed4_eq (c : Dev nD) (t : Fin cfg4.N) :
    (dat4 (F := Ideal) V c).flushed 3 t
      = ((cfg4.win 3).blk t).view.read (Elt Ideal) (Cert.GcnSpec.linB (V c main_v64) (V c main_arg6) (V c main_v65)) := by
  show (cfg4.win 3).cut (grid4.coords t) ((dat4 V c).after 3 t) = _
  rw [after4_3]
  unfold out4_3
  rw [View.canon_unit_zero hz4]
  simp only [View.ld_unit_zero (S := S10000x15) hz4, View.ld_unit_zero (S := S15x15) hz4, View.ld_unit_zero (S := S1x15) hz4]
  funext j
  exact entry4_emb V c t j

/-! ## From the blocks to the array -/

/-- An index of the result array is in point `t`'s block iff each coordinate is in the block's range on its axis. -/
theorem mem_blk4 (t : Fin cfg4.N) (i : S100000x15.Idx) :
    i ∈ ((cfg4.win 3).blk t).view.set ↔ ∀ a : Fin 2, win4_3.index t a * S10000x15.size a ≤ (i a).val ∧ (i a).val < win4_3.index t a * S10000x15.size a + S10000x15.size a := by
  show i ∈ ((View.whole main_v66).slice (win4_3.rect t)).set ↔ _
  rw [View.set_slice_whole, Rect.mem_set_unit]
  exact Iff.rfl

/-- Row `r` of the result array is in the block of point `r / 10000`: the ten blocks of 10000 rows tile the 100000 rows. -/
theorem cover4 (i : S100000x15.Idx) :
    ∃ t : Fin cfg4.N, (cfg4.win 3).flush t = true ∧ i ∈ ((cfg4.win 3).blk t).view.set := by
  have hN : grid4.N = 10 := N_4
  have hi0 : (i 0).val < 100000 := (i 0).isLt
  have hi1 : (i 1).val < 15 := (i 1).isLt
  obtain ⟨t, ht⟩ : ∃ t : Fin cfg4.N, t.val = (i 0).val / 10000 :=
    ⟨⟨(i 0).val / 10000, by show (i 0).val / 10000 < grid4.N; omega⟩, rfl⟩
  obtain ⟨-, -, -, -, -, -, e6, e7⟩ := idx_facts4 t
  refine ⟨t, flush4_3 t, ?_⟩
  rw [mem_blk4]
  intro a
  match a with
  | ⟨0, _⟩ =>
    show win4_3.index t 0 * 10000 ≤ (i 0).val ∧ (i 0).val < win4_3.index t 0 * 10000 + 10000
    rw [e6, ht]; omega
  | ⟨1, _⟩ =>
    show win4_3.index t 1 * 15 ≤ (i 1).val ∧ (i 1).val < win4_3.index t 1 * 15 + 15
    rw [e7]; omega

/-- THE RESULT ARRAY after the region: the dense layer from 15 features to 15 of the arrays the region finds. -/
theorem final4 (c : Dev nD) :
    (dat4 (F := Ideal) V c).arrAt 3 cfg4.N = Cert.GcnSpec.linB (V c main_v64) (V c main_arg6) (V c main_v65) :=
  (dat4 V c).arrAt_eq_of_cover 3 (Cert.GcnSpec.linB (V c main_v64) (V c main_arg6) (V c main_v65))
    (fun t _ => flushed4_eq V c t) cover4

end Cert.KernelIdeal.Hand

end
-- ==== Proof.Region5.lean ====
/-
  The third bias-and-rectify region: its output array ends holding the bias-and-rectify layer of the arrays it finds.

  The region runs over ten points; point `t` handles rows `10000 t … 10000 t + 9999` of a 100000 × 15 array. At each
  point the body adds the bias row to every row of the block and takes the maximum with zero: read at an index, the body's
  value is `max (a (p, q) + b (0, q)) 0`. The block written back at point `t` is therefore block `t` of that function of
  the whole arrays; the ten blocks fill the array; so the array ends holding the function.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The body's value at an index: the entry plus the bias row's entry of its column, rectified. -/
theorem payload5_apply (x0 : Vec Ideal S10000x15 .f32) (x1 : Vec Ideal S1x15 .f32) (p : Fin 10000) (q : Fin 15) :
    k5_pay1 x0 x1 (ix2 p q) = max (x0 (ix2 p q) + x1 (ix2 (0 : Fin 1) q)) 0 := by
  unfold k5_pay1
  simp only [shapeCast_self]
  rw [maximumf_apply, addf_apply, broadcast_apply]
  refine congrArg₂ max (congrArg₂ (· + ·) rfl ?_) ?_
  · exact broadcastTo_1b_ab_apply x1 _ p q
  · exact Ideal.ofBits_zero_f32

theorem hz5 : (![0, 0] : Fin 2 → Nat) = fun _ => 0 := funext fun a => by fin_cases a <;> rfl

/-- The printed block index maps, decided over the grid: the row blocks of the input and of the output move with the
    point, the bias row's block is always the first. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The input block at point `t` is rows `10000 t … 10000 t + 9999` of the input array. -/
theorem iblk5_0_apply (c : Dev nD) (t : Fin cfg5.N) (p : Fin 10000) (q : Fin 15) (r : Fin 100000)
    (hr : r.val = 10000 * t.val + p.val) :
    (iblk5 (F := Ideal) V c 0 t : Vec Ideal S10000x15 .f32) (ix2 p q)
      = (V c main_v79 : S100000x15.Idx → Elt Ideal .f32) (ix2 r q) := by
  obtain ⟨e0, e1, -⟩ := idx_facts5 t
  unfold iblk5
  rw [View.read_apply]
  show V c main_v79 _ = V c main_v79 _
  refine congrArg _ ?_
  funext a; apply Fin.ext
  match a with
  | ⟨0, _⟩ => show win5_0.index t 0 * 10000 + 1 * p.val = r.val; rw [e0, hr]; omega
  | ⟨1, _⟩ => show win5_0.index t 1 * 15 + 1 * q.val = q.val; rw [e1]; omega

/-- The bias block at every point is the bias row. -/
theorem iblk5_1_apply (c : Dev nD) (t : Fin cfg5.N) (q : Fin 15) :
    (iblk5 (F := Ideal) V c 1 t : Vec Ideal S1x15 .f32) (ix2 (0 : Fin 1) q)
      = (V c main_v80 : S1x15.Idx → Elt Ideal .f32) (ix2 (0 : Fin 1) q) := by
  obtain ⟨-, -, e2, e3, -⟩ := idx_facts5 t
  unfold iblk5
  rw [View.read_apply]
  show V c main_v80 _ = V c main_v80 _
  refine congrArg _ ?_
  funext a; apply Fin.ext
  match a with
  | ⟨0, _⟩ => show win5_1.index t 0 * 1 + 1 * 0 = 0; rw [e2]
  | ⟨1, _⟩ => show win5_1.index t 1 * 15 + 1 * q.val = q.val; rw [e3]; omega

/-- What point `t` writes back is block `t` of the bias-and-rectify layer of the arrays the region finds. -/
theorem flushed5_eq (c : Dev nD) (t : Fin cfg5.N) :
    (dat5 (F := Ideal) V c).flushed 2 t
      = ((cfg5.win 2).blk t).view.read (Elt Ideal) (Cert.GcnSpec.biasRelu (V c main_v79) (V c main_v80)) := by
  show (cfg5.win 2).cut (grid5.coords t) ((dat5 V c).after 2 t) = _
  rw [after5_2]
  unfold out5_2
  rw [View.canon_unit_zero hz5]
  simp only [View.ld_unit_zero (S := S10000x15) hz5, View.ld_unit_zero (S := S1x15) hz5]
  obtain ⟨-, -, -, -, e4, e5⟩ := idx_facts5 t
  have hN : cfg5.N = 10 := N_5
  refine funext fun (j : S10000x15.Idx) => ?_
  obtain ⟨p, q, rfl⟩ : ∃ (p : Fin 10000) (q : Fin 15), j = ix2 p q := ⟨j 0, j 1, eq_ix2 j⟩
  have hr : 10000 * t.val + p.val < 100000 := by have := t.isLt; have := p.isLt; omega
  have hemb : (((cfg5.win 2).blk t).view.emb (ix2 p q : S10000x15.Idx) : S100000x15.Idx)
      = ix2 (⟨10000 * t.val + p.val, hr⟩ : Fin 100000) q := by
    funext a; apply Fin.ext
    match a with
    | ⟨0, _⟩ => show win5_2.index t 0 * 10000 + 1 * p.val = 10000 * t.val + p.val; rw [e4]; omega
    | ⟨1, _⟩ => show win5_2.index t 1 * 15 + 1 * q.val = q.val; rw [e5]; omega
  show k5_pay1 (iblk5 V c 0 t) (iblk5 V c 1 t) (ix2 p q)
      = Cert.GcnSpec.biasRelu (V c main_v79) (V c main_v80) (((cfg5.win 2).blk t).view.emb (ix2 p q : S10000x15.Idx))
  refine (payload5_apply _ _ p q).trans ?_
  refine Eq.trans ?_ (congrArg (Cert.GcnSpec.biasRelu (V c main_v79) (V c main_v80)) hemb.symm)
  rw [Cert.GcnSpec.biasRelu_apply, iblk5_0_apply V c t p q ⟨_, hr⟩ rfl, iblk5_1_apply V c t q]

/-- An index of the array is in point `t`'s block iff each coordinate is in the block's range on its axis. -/
theorem mem_blk5 (t : Fin cfg5.N) (i : S100000x15.Idx) :
    i ∈ ((cfg5.win 2).blk t).view.set ↔ ∀ a : Fin 2, win5_2.index t a * S10000x15.size a ≤ (i a).val
      ∧ (i a).val < win5_2.index t a * S10000x15.size a + S10000x15.size a := by
  show i ∈ ((View.whole main_v81).slice (win5_2.rect t)).set ↔ _
  rw [View.set_slice_whole, Rect.mem_set_unit]
  exact Iff.rfl

/-- The ten row blocks fill the array: row `r` is in the block of point `r / 10000`, and every point writes back. -/
theorem cover5 (i : S100000x15.Idx) :
    ∃ t : Fin cfg5.N, (cfg5.win 2).flush t = true ∧ i ∈ ((cfg5.win 2).blk t).view.set := by
  have hN : cfg5.N = 10 := N_5
  have hi0 : (i 0).val < 100000 := (i 0).isLt
  have hi1 : (i 1).val < 15 := (i 1).isLt
  obtain ⟨t, ht⟩ : ∃ t : Fin cfg5.N, t.val = (i 0).val / 10000 := ⟨⟨(i 0).val / 10000, by rw [hN]; omega⟩, rfl⟩
  obtain ⟨-, -, -, -, e4, e5⟩ := idx_facts5 t
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    rw [e4]; omega
  | ⟨1, _⟩ =>
    show win5_2.index t (1 : Fin 2) * 15 ≤ (i 1).val ∧ (i 1).val < win5_2.index t (1 : Fin 2) * 15 + 15
    rw [e5]; omega

/-- The output array after the region: the bias-and-rectify layer of the input array and the bias row it found. -/
theorem final5 (c : Dev nD) :
    (dat5 (F := Ideal) V c).arrAt 2 cfg5.N = Cert.GcnSpec.biasRelu (V c main_v79) (V c main_v80) :=
  (dat5 V c).arrAt_eq_of_cover 2 (Cert.GcnSpec.biasRelu (V c main_v79) (V c main_v80))
    (fun t _ => flushed5_eq V c t) cover5

end Cert.KernelIdeal.Hand

end
-- ==== Proof.Region6.lean ====
/-
  The last dense layer, from 15 features to 128, as the kernel computes it: ten grid points, each taking a block of
  10000 rows of the 100000-row feature array, the whole 15 × 128 weight array and the whole bias row, and writing the
  block of 10000 rows of the result. Entry (p, q) of the block a point writes is the sum over the 15 features of
  row p of its block of rows times column q of the weights, plus entry q of the bias row; the ten blocks tile the
  result array, which therefore ends holding the dense layer of the arrays the region finds.
-/
import proofs.«102663_j75076028334671_1_alg».proof.Proof.Gen.KernelIdeal.Frame
import proofs.«102663_j75076028334671_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at one entry of a block -/

/-- The row coordinate of the left operand's index is the output's row. -/
theorem lhs6_row (i : S10000x128.Idx) (q : dot_S10000x15_S15x128_S10000x128_1_0_0_1_n_n.contr.Idx) :
    (dot_S10000x15_S15x128_S10000x128_1_0_0_1_n_n.lhsIdx i q 0).val = (i 0).val := by
  unfold DotDims.lhsIdx
  rw [dif_neg (show ¬(0 : Fin S10000x15.rank) ∈ dot_S10000x15_S15x128_S10000x128_1_0_0_1_n_n.lhsBatch by decide), dif_pos (show (0 : Fin S10000x15.rank) ∈ dot_S10000x15_S15x128_S10000x128_1_0_0_1_n_n.lhsNonContracting by decide)]
  rfl
/-- Its column coordinate is the contracted coordinate. -/
theorem lhs6_col (i : S10000x128.Idx) (q : dot_S10000x15_S15x128_S10000x128_1_0_0_1_n_n.contr.Idx) :
    (dot_S10000x15_S15x128_S10000x128_1_0_0_1_n_n.lhsIdx i q 1).val = (q ⟨0, by decide⟩).val :=
  dot_S10000x15_S15x128_S10000x128_1_0_0_1_n_n.lhsIdx_val_of_single rfl i q
/-- The row coordinate of the right operand's index is the contracted coordinate. -/
theorem rhs6_row (i : S10000x128.Idx) (q : dot_S10000x15_S15x128_S10000x128_1_0_0_1_n_n.contr.Idx) :
    (dot_S10000x15_S15x128_S10000x128_1_0_0_1_n_n.rhsIdx i q 0).val = (q ⟨0, by decide⟩).val :=
  dot_S10000x15_S15x128_S10000x128_1_0_0_1_n_n.rhsIdx_val_of_single rfl i q
/-- Its column coordinate is the output's column. -/
theorem rhs6_col (i : S10000x128.Idx) (q : dot_S10000x15_S15x128_S10000x128_1_0_0_1_n_n.contr.Idx) :
    (dot_S10000x15_S15x128_S10000x128_1_0_0_1_n_n.rhsIdx i q 1).val = (i 1).val := by
  unfold DotDims.rhsIdx
  rw [dif_neg (show ¬(1 : Fin S15x128.rank) ∈ dot_S10000x15_S15x128_S10000x128_1_0_0_1_n_n.rhsBatch by decide), dif_pos (show (1 : Fin S15x128.rank) ∈ dot_S10000x15_S15x128_S10000x128_1_0_0_1_n_n.rhsNonContracting by decide)]
  rfl

/-- The product of a block of rows with the weights, read at row `p` and column `q`: the sum over the 15 features. -/
theorem matmul6_apply (x0 : FVec Ideal S10000x15 .bf16) (x1 : FVec Ideal S15x128 .bf16) (p : Fin 10000) (q : Fin 128) :
    matmul dot_S10000x15_S15x128_S10000x128_1_0_0_1_n_n none x0 x1 (constant S10000x128 .f32 0x00000000#32) (ix2 p q)
      = ∑ k : Fin 15, x0 (ix2 p k) * x1 (ix2 k q) := by
  refine (Ideal.matmul_constant_zero_apply dot_S10000x15_S15x128_S10000x128_1_0_0_1_n_n none x0 x1 (ix2 p q)).trans ?_
  rw [← Equiv.sum_comp (ValueIdx.contrEquiv1 dot_S10000x15_S15x128_S10000x128_1_0_0_1_n_n 15 rfl rfl).symm]
  refine Finset.sum_congr rfl fun k _ => ?_
  have hk := ValueIdx.contrEquiv1_symm_val dot_S10000x15_S15x128_S10000x128_1_0_0_1_n_n 15 rfl rfl k
  have el : dot_S10000x15_S15x128_S10000x128_1_0_0_1_n_n.lhsIdx (ix2 p q) ((ValueIdx.contrEquiv1 dot_S10000x15_S15x128_S10000x128_1_0_0_1_n_n 15 rfl rfl).symm k) = ix2 p k := funext fun a => Fin.ext (by
    match a with
    | ⟨0, _⟩ => exact lhs6_row _ _
    | ⟨1, _⟩ => exact (lhs6_col _ _).trans hk)
  have er : dot_S10000x15_S15x128_S10000x128_1_0_0_1_n_n.rhsIdx (ix2 p q) ((ValueIdx.contrEquiv1 dot_S10000x15_S15x128_S10000x128_1_0_0_1_n_n 15 rfl rfl).symm k) = ix2 k q := funext fun a => Fin.ext (by
    match a with
    | ⟨0, _⟩ => exact (rhs6_row _ _).trans hk
    | ⟨1, _⟩ => exact rhs6_col _ _)
  rw [el, er]

/-- What the body stores at row `p`, column `q` of its block: the row of features times the weights' column, plus the bias. -/
theorem payload6_apply (x0 : Vec Ideal S10000x15 .f32) (x1 : Vec Ideal S15x128 .f32) (x2 : Vec Ideal S1x128 .f32) (p : Fin 10000) (q : Fin 128) :
    k6_pay1 x0 x1 x2 (ix2 p q) = (∑ k : Fin 15, x0 (ix2 p k) * x1 (ix2 k q)) + x2 (ix2 (0 : Fin 1) q) := by
  unfold k6_pay1
  refine (addf_apply _ _ (ix2 p q)).trans ?_
  refine congrArg₂ (· + ·) ?_ ?_
  · refine (matmul6_apply _ _ p q).trans ?_
    refine Finset.sum_congr rfl fun k _ => ?_
    refine congrArg₂ (· * ·) ?_ rfl
    exact congrFun (shapeCast_self x0 shapeCasts_S10000x15_S10000x15) (ix2 p k)
  · refine (broadcastTo_1b_ab_apply _ broadcasts_S1x128_S10000x128 p q).trans ?_
    rw [shapeCast_self]

/-! ## The blocks of the four windows -/

variable (V : (c : Dev nD) → (b : Ref sig .tc) → Buf (Elt Ideal) ((c : Thread nD τ).loc b))

theorem hz6 : (![0, 0] : Fin 2 → Nat) = fun _ => 0 := funext fun a => by fin_cases a <;> rfl

/-- Which block of its array each window holds at grid point `t`: the rows' block and the result's block are block `t`
    along the rows; the weights and the bias row are always their one whole block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- There are ten grid points. -/
theorem lt_ten6 (t : Fin cfg6.N) : t.val < 10 :=
  Nat.lt_of_lt_of_eq t.isLt (show cfg6.N = 10 from N_6)

/-- Entry `(p, k)` of the block of rows at point `t` is entry `(10000 t + p, k)` of the array of rows. -/
theorem iblk6_0_apply (c : Dev nD) (t : Fin cfg6.N) (p : Fin 10000) (k : Fin 15) (h : 10000 * t.val + p.val < 100000) :
    (iblk6 (F := Ideal) V c 0 t : Vec Ideal S10000x15 .f32) (ix2 p k)
      = (V c main_v81 : S100000x15.Idx → Elt Ideal .f32) (ix2 ⟨10000 * t.val + p.val, h⟩ k) := by
  obtain ⟨e0, e1, -⟩ := idx_facts6 t
  unfold iblk6
  rw [View.read_apply]
  show V c main_v81 _ = V c main_v81 _
  congr 1
  funext a
  apply Fin.ext
  match a with
  | ⟨0, _⟩ => show win6_0.index t 0 * 10000 + 1 * p.val = 10000 * t.val + p.val; rw [e0]; omega
  | ⟨1, _⟩ => show win6_0.index t 1 * 15 + 1 * k.val = k.val; rw [e1]; omega

/-- The weights' block at every point is the whole array of weights. -/
theorem iblk6_1_apply (c : Dev nD) (t : Fin cfg6.N) (k : Fin 15) (q : Fin 128) :
    (iblk6 (F := Ideal) V c 1 t : Vec Ideal S15x128 .f32) (ix2 k q)
      = (V c main_arg8 : S15x128.Idx → Elt Ideal .f32) (ix2 k q) := by
  obtain ⟨-, -, e2, e3, -⟩ := idx_facts6 t
  unfold iblk6
  rw [View.read_apply]
  show V c main_arg8 _ = V c main_arg8 _
  congr 1
  funext a
  apply Fin.ext
  match a with
  | ⟨0, _⟩ => show win6_1.index t 0 * 15 + 1 * k.val = k.val; rw [e2]; omega
  | ⟨1, _⟩ => show win6_1.index t 1 * 128 + 1 * q.val = q.val; rw [e3]; omega

/-- The bias block at every point is the whole bias row. -/
theorem iblk6_2_apply (c : Dev nD) (t : Fin cfg6.N) (q : Fin 128) :
    (iblk6 (F := Ideal) V c 2 t : Vec Ideal S1x128 .f32) (ix2 (0 : Fin 1) q)
      = (V c main_v82 : S1x128.Idx → Elt Ideal .f32) (ix2 (0 : Fin 1) q) := by
  obtain ⟨-, -, -, -, e4, e5, -⟩ := idx_facts6 t
  unfold iblk6
  rw [View.read_apply]
  show V c main_v82 _ = V c main_v82 _
  congr 1
  funext a
  apply Fin.ext
  match a with
  | ⟨0, _⟩ => show win6_2.index t 0 * 1 + 1 * 0 = 0; rw [e4]
  | ⟨1, _⟩ => show win6_2.index t 1 * 128 + 1 * q.val = q.val; rw [e5]; omega

/-- Entry `(p, q)` of the result's block at point `t` sits at `(10000 t + p, q)` in the result array. -/
theorem emb6_3 (t : Fin cfg6.N) (p : Fin 10000) (q : Fin 128) (h : 10000 * t.val + p.val < 100000) :
    ((cfg6.win 3).blk t).view.emb (ix2 p q) = (ix2 ⟨10000 * t.val + p.val, h⟩ q : S100000x128.Idx) := by
  obtain ⟨-, -, -, -, -, -, e6, e7⟩ := idx_facts6 t
  funext a
  apply Fin.ext
  match a with
  | ⟨0, _⟩ => show win6_3.index t 0 * 10000 + 1 * p.val = 10000 * t.val + p.val; rw [e6]; omega
  | ⟨1, _⟩ => show win6_3.index t 1 * 128 + 1 * q.val = q.val; rw [e7]; omega

/-- What the body leaves at entry `(p, q)` of its block at point `t` is the dense layer at row `10000 t + p`, column `q`:
    it depends on row `10000 t + p` of the features, column `q` of the weights and entry `q` of the bias row. -/
theorem entry6 (c : Dev nD) (t : Fin cfg6.N) (p : Fin 10000) (q : Fin 128) (h : 10000 * t.val + p.val < 100000) :
    k6_pay1 (F := Ideal) (iblk6 V c 0 t) (iblk6 V c 1 t) (iblk6 V c 2 t) (ix2 p q)
      = Cert.GcnSpec.linC (V c main_v81) (V c main_arg8) (V c main_v82) (ix2 ⟨10000 * t.val + p.val, h⟩ q) := by
  rw [Cert.GcnSpec.linC_apply]
  refine (payload6_apply _ _ _ p q).trans ?_
  refine congrArg₂ (· + ·) (Finset.sum_congr rfl fun k _ => ?_) ?_
  · exact congrArg₂ (· * ·) (iblk6_0_apply V c t p k h) (iblk6_1_apply V c t k q)
  · exact iblk6_2_apply V c t q

/-- The same at any index of the block, the array's index named by the block's place in the array. -/
theorem entry6_emb (c : Dev nD) (t : Fin cfg6.N) (j : S10000x128.Idx) :
    k6_pay1 (F := Ideal) (iblk6 V c 0 t) (iblk6 V c 1 t) (iblk6 V c 2 t) j
      = Cert.GcnSpec.linC (V c main_v81) (V c main_arg8) (V c main_v82) (((cfg6.win 3).blk t).view.emb j) := by
  obtain ⟨p, q, rfl⟩ : ∃ (p : Fin 10000) (q : Fin 128), j = ix2 p q := ⟨j 0, j 1, eq_ix2 j⟩
  have ht := lt_ten6 t
  have hp := p.isLt
  have h : 10000 * t.val + p.val < 100000 := by omega
  rw [emb6_3 t p q h]
  exact entry6 V c t p q h

/-- WHAT POINT `t` WRITES BACK is block `t` of the dense layer of the arrays the region finds. -/
theorem flushed6_eq (c : Dev nD) (t : Fin cfg6.N) :
    (dat6 (F := Ideal) V c).flushed 3 t
      = ((cfg6.win 3).blk t).view.read (Elt Ideal) (Cert.GcnSpec.linC (V c main_v81) (V c main_arg8) (V c main_v82)) := by
  show (cfg6.win 3).cut (grid6.coords t) ((dat6 V c).after 3 t) = _
  rw [after6_3]
  unfold out6_3
  rw [View.canon_unit_zero hz6]
  simp only [View.ld_unit_zero (S := S10000x15) hz6, View.ld_unit_zero (S := S15x128) hz6, View.ld_unit_zero (S := S1x128) hz6]
  funext j
  exact entry6_emb V c t j

/-! ## From the blocks to the array -/

/-- An index of the result array is in point `t`'s block iff each coordinate is in the block's range on its axis. -/
theorem mem_blk6 (t : Fin cfg6.N) (i : S100000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v83).slice (win6_3.rect t)).set ↔ _
  rw [View.set_slice_whole, Rect.mem_set_unit]
  exact Iff.rfl

/-- Row `r` of the result array is in the block of point `r / 10000`: the ten blocks of 10000 rows tile the 100000 rows. -/
theorem cover6 (i : S100000x128.Idx) :
    ∃ t : Fin cfg6.N, (cfg6.win 3).flush t = true ∧ i ∈ ((cfg6.win 3).blk t).view.set := by
  have hN : grid6.N = 10 := N_6
  have hi0 : (i 0).val < 100000 := (i 0).isLt
  have hi1 : (i 1).val < 128 := (i 1).isLt
  obtain ⟨t, ht⟩ : ∃ t : Fin cfg6.N, t.val = (i 0).val / 10000 :=
    ⟨⟨(i 0).val / 10000, by show (i 0).val / 10000 < grid6.N; omega⟩, rfl⟩
  obtain ⟨-, -, -, -, -, -, e6, e7⟩ := idx_facts6 t
  refine ⟨t, flush6_3 t, ?_⟩
  rw [mem_blk6]
  intro a
  match a with
  | ⟨0, _⟩ =>
    show win6_3.index t 0 * 10000 ≤ (i 0).val ∧ (i 0).val < win6_3.index t 0 * 10000 + 10000
    rw [e6, ht]; omega
  | ⟨1, _⟩ =>
    show win6_3.index t 1 * 128 ≤ (i 1).val ∧ (i 1).val < win6_3.index t 1 * 128 + 128
    rw [e7]; omega

/-- THE RESULT ARRAY after the region: the dense layer from 15 features to 128 of the arrays the region finds. -/
theorem final6 (c : Dev nD) :
    (dat6 (F := Ideal) V c).arrAt 3 cfg6.N = Cert.GcnSpec.linC (V c main_v81) (V c main_arg8) (V c main_v82) :=
  (dat6 V c).arrAt_eq_of_cover 3 (Cert.GcnSpec.linC (V c main_v81) (V c main_arg8) (V c main_v82))
    (fun t _ => flushed6_eq V c t) cover6

end Cert.KernelIdeal.Hand

end
-- ==== Proof.RefBridge.lean ====
/-
  The reference's layer operations are the specification's layer functions, index by index, over the extended reals.

  A contraction of a matrix of rows with a weight matrix over their shared axis is, at `(p, q)`, the sum over `k` of
  `x (p, k) * w (k, q)`: the dense layer with a zero bias row. A vector broadcast first to a one-row matrix and then down
  the rows reads, at `(p, q)`, the vector's entry `q`: the bias row. Adding it and taking the maximum with the zero
  matrix is the bias-and-rectify layer.
-/
import proofs.«102663_j75076028334671_1_alg».proof.Proof.RefReadP
import proofs.«102663_j75076028334671_1_alg».proof.Proof.Spec
import Idealize.ShloMosaic.Lib.ValueLayout

set_option maxRecDepth 16384
noncomputable section

namespace Cert.ReferenceIdeal.Hand

open Cert.ReferenceIdeal Cert.ReferenceIdeal.Gen Cert.ReferenceIdeal.ReadP Idealize.ShloMosaic Idealize.ShloMosaic.TcCoe Idealize.ShloMosaic.ValueIdx Cert.GcnSpec

/-! ## The contractions read at an index -/

/-- The contraction of a 100000 × 15 matrix with a 15 × 15 matrix, at `(p, q)`: the sum over `k` of `y (p, k) * w (k, q)`. -/
theorem dotB_apply (y : (⟨S100000x15, .f32⟩ : BufTy).Contents (Elt Ideal)) (w : (⟨S15x15, .f32⟩ : BufTy).Contents (Elt Ideal))
    (p : Fin 100000) (q : Fin 15) :
    Host.dotGeneral (F := Ideal) (φ₁ := .f32) (φ₂ := .f32) dot_S100000x15_S15x15_S100000x15_1_0_0_1_n_n none y w (ix2 p q)
      = ∑ k : Fin 15, y (ix2 p k) * w (ix2 k q) := by
  simp only [Host.dotGeneral]
  rw [Ideal.dotGeneral_apply, ← Equiv.sum_comp (ValueIdx.contrEquiv1 dot_S100000x15_S15x15_S100000x15_1_0_0_1_n_n 15 rfl rfl).symm]
  refine Finset.sum_congr rfl fun k _ => ?_
  have hk := ValueIdx.contrEquiv1_symm_val dot_S100000x15_S15x15_S100000x15_1_0_0_1_n_n 15 rfl rfl k
  have el : dot_S100000x15_S15x15_S100000x15_1_0_0_1_n_n.lhsIdx (ix2 p q) ((ValueIdx.contrEquiv1 dot_S100000x15_S15x15_S100000x15_1_0_0_1_n_n 15 rfl rfl).symm k) = ix2 p k := funext fun a => Fin.ext (by
    match a with
    | ⟨0, _⟩ => exact lhs_main_v48_0 _ _
    | ⟨1, _⟩ => exact (lhs_main_v48_1 _ _).trans hk)
  have er : dot_S100000x15_S15x15_S100000x15_1_0_0_1_n_n.rhsIdx (ix2 p q) ((ValueIdx.contrEquiv1 dot_S100000x15_S15x15_S100000x15_1_0_0_1_n_n 15 rfl rfl).symm k) = ix2 k q := funext fun a => Fin.ext (by
    match a with
    | ⟨0, _⟩ => exact (rhs_main_v48_0 _ _).trans hk
    | ⟨1, _⟩ => exact rhs_main_v48_1 _ _)
  rw [el, er]

/-- The contraction of a 100000 × 15 matrix with a 15 × 128 matrix, at `(p, q)`. -/
theorem dotC_apply (y : (⟨S100000x15, .f32⟩ : BufTy).Contents (Elt Ideal)) (w : (⟨S15x128, .f32⟩ : BufTy).Contents (Elt Ideal))
    (p : Fin 100000) (q : Fin 128) :
    Host.dotGeneral (F := Ideal) (φ₁ := .f32) (φ₂ := .f32) dot_S100000x15_S15x128_S100000x128_1_0_0_1_n_n none y w (ix2 p q)
      = ∑ k : Fin 15, y (ix2 p k) * w (ix2 k q) := by
  simp only [Host.dotGeneral]
  rw [Ideal.dotGeneral_apply, ← Equiv.sum_comp (ValueIdx.contrEquiv1 dot_S100000x15_S15x128_S100000x128_1_0_0_1_n_n 15 rfl rfl).symm]
  refine Finset.sum_congr rfl fun k _ => ?_
  have hk := ValueIdx.contrEquiv1_symm_val dot_S100000x15_S15x128_S100000x128_1_0_0_1_n_n 15 rfl rfl k
  have el : dot_S100000x15_S15x128_S100000x128_1_0_0_1_n_n.lhsIdx (ix2 p q) ((ValueIdx.contrEquiv1 dot_S100000x15_S15x128_S100000x128_1_0_0_1_n_n 15 rfl rfl).symm k) = ix2 p k := funext fun a => Fin.ext (by
    match a with
    | ⟨0, _⟩ => exact lhs_main_v84_0 _ _
    | ⟨1, _⟩ => exact (lhs_main_v84_1 _ _).trans hk)
  have er : dot_S100000x15_S15x128_S100000x128_1_0_0_1_n_n.rhsIdx (ix2 p q) ((ValueIdx.contrEquiv1 dot_S100000x15_S15x128_S100000x128_1_0_0_1_n_n 15 rfl rfl).symm k) = ix2 k q := funext fun a => Fin.ext (by
    match a with
    | ⟨0, _⟩ => exact (rhs_main_v84_0 _ _).trans hk
    | ⟨1, _⟩ => exact rhs_main_v84_1 _ _)
  rw [el, er]

/-- The contraction of a 100000 × 128 matrix with a 128 × 15 matrix, at `(p, q)`. -/
theorem dotA_apply (x : (⟨S100000x128, .f32⟩ : BufTy).Contents (Elt Ideal)) (w : (⟨S128x15, .f32⟩ : BufTy).Contents (Elt Ideal))
    (p : Fin 100000) (q : Fin 15) :
    Host.dotGeneral (F := Ideal) (φ₁ := .f32) (φ₂ := .f32) dot_S100000x128_S128x15_S100000x15_1_0_0_1_n_n none x w (ix2 p q)
      = ∑ k : Fin 128, x (ix2 p k) * w (ix2 k q) := by
  refine (val_main_v30_apply x w (ix2 p q)).trans (Finset.sum_congr rfl fun k _ => ?_)
  have el : lidx_main_v30 (ix2 p q) k = ix2 p k := funext fun a => Fin.ext (by match a with | ⟨0, _⟩ => rfl | ⟨1, _⟩ => rfl)
  have er : ridx_main_v30 (ix2 p q) k = ix2 k q := funext fun a => Fin.ext (by match a with | ⟨0, _⟩ => rfl | ⟨1, _⟩ => rfl)
  rw [el, er]

/-! ## The bias rows and the zero matrix read at an index -/

/-- A 15-vector broadcast to one row and then down 100000 rows reads, at `(p, q)`, the vector's entry `q`. -/
theorem biasRow15_apply (b3 : (⟨S15, .f32⟩ : BufTy).Contents (Elt Ideal)) (p : Fin 100000) (q : Fin 15) :
    broadcastInDim S100000x15 ![0, 1] bcast_S1x15_S100000x15_0_1 (broadcastInDim S1x15 ![1] bcast_S15_S1x15_1 b3) (ix2 p q)
      = b3 (ix1 q) := by
  show val_main_v45 (F := Ideal) b3 (ix2 p q) = _
  rw [val_main_v45_apply, val_main_v44_apply]
  refine congrArg b3 (funext fun a => Fin.ext ?_)
  match a with
  | ⟨0, _⟩ => rfl

/-- A 128-vector broadcast to one row and then down 100000 rows reads, at `(p, q)`, the vector's entry `q`. -/
theorem biasRow128_apply (b9 : (⟨S128, .f32⟩ : BufTy).Contents (Elt Ideal)) (p : Fin 100000) (q : Fin 128) :
    broadcastInDim S100000x128 ![0, 1] bcast_S1x128_S100000x128_0_1 (broadcastInDim S1x128 ![1] bcast_S128_S1x128_1 b9) (ix2 p q)
      = b9 (ix1 q) := by
  show val_main_v86 (F := Ideal) b9 (ix2 p q) = _
  rw [val_main_v86_apply, val_main_v85_apply]
  refine congrArg b9 (funext fun a => Fin.ext ?_)
  match a with
  | ⟨0, _⟩ => rfl

/-- The zero constant spread over the matrix reads zero everywhere. -/
theorem zeros_apply (i : S100000x15.Idx) :
    broadcastInDim S100000x15 ![] bcast_S_S100000x15 (constant (F := Ideal) S_ .f32 0x00000000#32) i = 0 := by
  show val_main_call1_v0 (F := Ideal) i = _
  rw [val_main_call1_v0_apply, val_main_call1_cst_apply]
  exact Ideal.ofBits_zero_f32

/-! ## The layers -/

theorem dotA_eq (x : (⟨S100000x128, .f32⟩ : BufTy).Contents (Elt Ideal)) (w : (⟨S128x15, .f32⟩ : BufTy).Contents (Elt Ideal))
    (b : (Mat 1 15).Idx → EReal) (hb : ∀ q : Fin 15, b (ix2 (0 : Fin 1) q) = 0) :
    linA x w b = Host.dotGeneral (F := Ideal) (φ₁ := .f32) (φ₂ := .f32) dot_S100000x128_S128x15_S100000x15_1_0_0_1_n_n none x w := by
  funext i
  obtain ⟨p, q, rfl⟩ : ∃ (p : Fin 100000) (q : Fin 15), i = ix2 p q := ⟨i 0, i 1, eq_ix2 i⟩
  rw [linA_apply, hb q, add_zero]
  exact (dotA_apply x w p q).symm

theorem dotB_eq (x : (⟨S100000x15, .f32⟩ : BufTy).Contents (Elt Ideal)) (w : (⟨S15x15, .f32⟩ : BufTy).Contents (Elt Ideal))
    (b : (Mat 1 15).Idx → EReal) (hb : ∀ q : Fin 15, b (ix2 (0 : Fin 1) q) = 0) :
    linB x w b = Host.dotGeneral (F := Ideal) (φ₁ := .f32) (φ₂ := .f32) dot_S100000x15_S15x15_S100000x15_1_0_0_1_n_n none x w := by
  funext i
  obtain ⟨p, q, rfl⟩ : ∃ (p : Fin 100000) (q : Fin 15), i = ix2 p q := ⟨i 0, i 1, eq_ix2 i⟩
  rw [linB_apply, hb q, add_zero]
  exact (dotB_apply x w p q).symm

theorem dotC_eq (x : (⟨S100000x15, .f32⟩ : BufTy).Contents (Elt Ideal)) (w : (⟨S15x128, .f32⟩ : BufTy).Contents (Elt Ideal))
    (b : (Mat 1 128).Idx → EReal) (b9 : (⟨S128, .f32⟩ : BufTy).Contents (Elt Ideal))
    (hb : ∀ q : Fin 128, b (ix2 (0 : Fin 1) q) = b9 (ix1 q)) :
    linC x w b = addf (F := Ideal) (Host.dotGeneral (F := Ideal) (φ₁ := .f32) (φ₂ := .f32) dot_S100000x15_S15x128_S100000x128_1_0_0_1_n_n none x w)
      (broadcastInDim S100000x128 ![0, 1] bcast_S1x128_S100000x128_0_1 (broadcastInDim S1x128 ![1] bcast_S128_S1x128_1 b9)) := by
  funext i
  obtain ⟨p, q, rfl⟩ : ∃ (p : Fin 100000) (q : Fin 128), i = ix2 p q := ⟨i 0, i 1, eq_ix2 i⟩
  rw [linC_apply, hb q]
  refine Eq.trans ?_ (addf_apply _ _ _).symm
  rw [dotC_apply x w p q, biasRow128_apply b9 p q]

theorem biasRelu_eq (a : (⟨S100000x15, .f32⟩ : BufTy).Contents (Elt Ideal)) (b : (Mat 1 15).Idx → EReal)
    (b3 : (⟨S15, .f32⟩ : BufTy).Contents (Elt Ideal)) (hb : ∀ q : Fin 15, b (ix2 (0 : Fin 1) q) = b3 (ix1 q)) :
    biasRelu a b = maximumf (F := Ideal) (addf (F := Ideal) a (broadcastInDim S100000x15 ![0, 1] bcast_S1x15_S100000x15_0_1
      (broadcastInDim S1x15 ![1] bcast_S15_S1x15_1 b3))) (broadcastInDim S100000x15 ![] bcast_S_S100000x15
      (constant (F := Ideal) S_ .f32 0x00000000#32)) := by
  funext i
  obtain ⟨p, q, rfl⟩ : ∃ (p : Fin 100000) (q : Fin 15), i = ix2 p q := ⟨i 0, i 1, eq_ix2 i⟩
  rw [biasRelu_apply, hb q]
  refine Eq.trans ?_ (maximumf_apply _ _ _).symm
  rw [zeros_apply]
  refine congrArg₂ max ?_ rfl
  refine Eq.trans ?_ (addf_apply _ _ _).symm
  rw [biasRow15_apply b3 p q]

end Cert.ReferenceIdeal.Hand

end
-- ==== Proof.Chain1.lean ====
/-
  The kernel program's buffers from its first launched kernel to its result, one boundary after another. A dense kernel
  leaves in its output array the dense layer of the arrays it finds; over a zero bias row that is the reference's matrix
  product, and with the last bias it is the reference's product plus the broadcast bias. A bias-and-rectify kernel leaves
  the reference's `max (a + b) 0`. Between the kernels the host gathers, scales and scatter-adds exactly as the
  reference does. So every buffer the next step reads is the reference's stage of the same arguments, and the result
  array ends at the reference's last stage. The index vectors, the normalisation, the zeros and the arguments not yet
  used are carried along untouched.
-/
import proofs.«102663_j75076028334671_1_alg».proof.Proof.HostSteps
import proofs.«102663_j75076028334671_1_alg».proof.Proof.Region0
import proofs.«102663_j75076028334671_1_alg».proof.Proof.Region1
import proofs.«102663_j75076028334671_1_alg».proof.Proof.Region2
import proofs.«102663_j75076028334671_1_alg».proof.Proof.Region3
import proofs.«102663_j75076028334671_1_alg».proof.Proof.Region4
import proofs.«102663_j75076028334671_1_alg».proof.Proof.Region5
import proofs.«102663_j75076028334671_1_alg».proof.Proof.Region6
import proofs.«102663_j75076028334671_1_alg».proof.Proof.RefBridge
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP Cert.ReferenceIdeal.Hand Idealize.ShloMosaic.ValueIdx Cert.GcnSpec

variable (m : (ℓ : Loc nD τ sig) → Buf (Elt Ideal) ℓ) (ρ : Dev nD → PrngReg) (c : Dev nD)

/-- The row of zeros reads zero. -/
theorem zeroRow_zero (q : Fin 15) : (zeroRow (F := Ideal)) (ix2 (0 : Fin 1) q) = 0 := by
  unfold zeroRow zeros15
  refine (shapeCast_a_1a_apply _ _ 0 q).trans ?_
  show Ideal.ofBits .f32 0x00000000#32 = 0
  exact Ideal.ofBits_zero_f32

/-- A vector cast to a row reads the vector. -/
theorem rowOf15_apply (v : (⟨S15, .f32⟩ : BufTy).Contents (Elt Ideal)) (q : Fin 15) :
    (shapeCast S1x15 v shapeCasts_S15_S1x15) (ix2 (0 : Fin 1) q) = v (ix1 q) :=
  shapeCast_a_1a_apply v _ 0 q
theorem rowOf128_apply (v : (⟨S128, .f32⟩ : BufTy).Contents (Elt Ideal)) (q : Fin 128) :
    (shapeCast S1x128 v shapeCasts_S128_S1x128) (ix2 (0 : Fin 1) q) = v (ix1 q) :=
  shapeCast_a_1a_apply v _ 0 q

/-! ## The first layer -/

theorem at4_v32 : W4 m ρ c (Proc.devRef .tc main_v32) = val_main_v30 (A0 m c) (A2 m c) := by
  refine (W4_arr m ρ c 3).trans ((final0 (V3 m ρ) c).trans ?_)
  dsimp only [V3]
  rw [at3_arg m ρ c main_arg0 (Or.inl rfl), at3_arg m ρ c main_arg2 (Or.inr (Or.inl rfl)), at3_v31]
  exact dotA_eq _ _ _ zeroRow_zero
theorem at4_v3 : W4 m ρ c (Proc.devRef .tc main_v3) = val_main_v3 (A1 m c) :=
  (W4_of_ne m ρ c main_v3 (by decide)).trans (at3_v3 m ρ c)
theorem at4_v6 : W4 m ρ c (Proc.devRef .tc main_v6) = val_main_v6 (A1 m c) :=
  (W4_of_ne m ρ c main_v6 (by decide)).trans (at3_v6 m ρ c)
theorem at4_v29 : W4 m ρ c (Proc.devRef .tc main_v29) = val_main_v29 (A1 m c) :=
  (W4_of_ne m ρ c main_v29 (by decide)).trans (at3_v29 m ρ c)
theorem at4_v30 : W4 m ρ c (Proc.devRef .tc main_v30) = zeros15 :=
  (W4_of_ne m ρ c main_v30 (by decide)).trans (at3_v30 m ρ c)
theorem at4_arg (b : Ref sig .tc) (hb : IsArgB b) : W4 m ρ c (Proc.devRef .tc b) = m ((c : Thread nD τ).loc b) := by
  refine Eq.trans ?_ (at3_arg m ρ c b hb.isArg)
  rcases hb with rfl | rfl | rfl | rfl | rfl | rfl | rfl <;> exact W4_of_ne m ρ c _ (by decide)

theorem at5_v45 : W5 m ρ c (Proc.devRef .tc main_v45) = val_main_v43 (A0 m c) (A1 m c) (A2 m c) :=
  ops1_v45 (W4 m ρ c) _ _ _ (at4_v3 m ρ c) (at4_v6 m ρ c) (at4_v29 m ρ c) (at4_v32 m ρ c)
theorem at5_v46 : W5 m ρ c (Proc.devRef .tc main_v46) = shapeCast S1x15 (A3 m c) shapeCasts_S15_S1x15 :=
  ops1_v46 (W4 m ρ c) _ (at4_arg m ρ c main_arg3 (Or.inl rfl))
theorem at5_v3 : W5 m ρ c (Proc.devRef .tc main_v3) = val_main_v3 (A1 m c) :=
  (ops1_keep (W4 m ρ c) _ (Or.inr (Or.inl rfl))).trans (at4_v3 m ρ c)
theorem at5_v6 : W5 m ρ c (Proc.devRef .tc main_v6) = val_main_v6 (A1 m c) :=
  (ops1_keep (W4 m ρ c) _ (Or.inr (Or.inr (Or.inl rfl)))).trans (at4_v6 m ρ c)
theorem at5_v29 : W5 m ρ c (Proc.devRef .tc main_v29) = val_main_v29 (A1 m c) :=
  (ops1_keep (W4 m ρ c) _ (Or.inr (Or.inr (Or.inr (Or.inl rfl))))).trans (at4_v29 m ρ c)
theorem at5_v30 : W5 m ρ c (Proc.devRef .tc main_v30) = zeros15 :=
  (ops1_keep (W4 m ρ c) _ (Or.inr (Or.inr (Or.inr (Or.inr (rfl)))))).trans (at4_v30 m ρ c)
theorem at5_arg (b : Ref sig .tc) (hb : IsArgB b) : W5 m ρ c (Proc.devRef .tc b) = m ((c : Thread nD τ).loc b) :=
  (ops1_keep (W4 m ρ c) b (Or.inl hb)).trans (at4_arg m ρ c b hb)

theorem at6_v47 : W6 m ρ c (Proc.devRef .tc main_v47) = val_main_v47 (A0 m c) (A1 m c) (A2 m c) (A3 m c) := by
  refine (W6_arr m ρ c 2).trans ((final1 (V5 m ρ) c).trans ?_)
  dsimp only [V5]
  rw [at5_v45, at5_v46]
  exact biasRelu_eq _ _ (A3 m c) (rowOf15_apply (A3 m c))
theorem at6_v3 : W6 m ρ c (Proc.devRef .tc main_v3) = val_main_v3 (A1 m c) :=
  (W6_of_ne m ρ c main_v3 (by decide)).trans (at5_v3 m ρ c)
theorem at6_v6 : W6 m ρ c (Proc.devRef .tc main_v6) = val_main_v6 (A1 m c) :=
  (W6_of_ne m ρ c main_v6 (by decide)).trans (at5_v6 m ρ c)
theorem at6_v29 : W6 m ρ c (Proc.devRef .tc main_v29) = val_main_v29 (A1 m c) :=
  (W6_of_ne m ρ c main_v29 (by decide)).trans (at5_v29 m ρ c)
theorem at6_v30 : W6 m ρ c (Proc.devRef .tc main_v30) = zeros15 :=
  (W6_of_ne m ρ c main_v30 (by decide)).trans (at5_v30 m ρ c)
theorem at6_arg (b : Ref sig .tc) (hb : IsArgB b) : W6 m ρ c (Proc.devRef .tc b) = m ((c : Thread nD τ).loc b) := by
  refine Eq.trans ?_ (at5_arg m ρ c b hb)
  rcases hb with rfl | rfl | rfl | rfl | rfl | rfl | rfl <;> exact W6_of_ne m ρ c _ (by decide)

/-! ## The second layer -/

theorem at7_v48 : W7 m ρ c (Proc.devRef .tc main_v48) = zeroRow := ops2_v48 (W6 m ρ c) (at6_v30 m ρ c)
theorem at7_v3 : W7 m ρ c (Proc.devRef .tc main_v3) = val_main_v3 (A1 m c) :=
  (ops2_keep (W6 m ρ c) _ (Or.inr (Or.inl rfl))).trans (at6_v3 m ρ c)
theorem at7_v6 : W7 m ρ c (Proc.devRef .tc main_v6) = val_main_v6 (A1 m c) :=
  (ops2_keep (W6 m ρ c) _ (Or.inr (Or.inr (Or.inl rfl)))).trans (at6_v6 m ρ c)
theorem at7_v29 : W7 m ρ c (Proc.devRef .tc main_v29) = val_main_v29 (A1 m c) :=
  (ops2_keep (W6 m ρ c) _ (Or.inr (Or.inr (Or.inr (Or.inl rfl))))).trans (at6_v29 m ρ c)
theorem at7_v30 : W7 m ρ c (Proc.devRef .tc main_v30) = zeros15 :=
  (ops2_keep (W6 m ρ c) _ (Or.inr (Or.inr (Or.inr (Or.inr (Or.inl rfl)))))).trans (at6_v30 m ρ c)
theorem at7_v47 : W7 m ρ c (Proc.devRef .tc main_v47) = val_main_v47 (A0 m c) (A1 m c) (A2 m c) (A3 m c) :=
  (ops2_keep (W6 m ρ c) _ (Or.inr (Or.inr (Or.inr (Or.inr (Or.inr (rfl))))))).trans (at6_v47 m ρ c)
theorem at7_arg (b : Ref sig .tc) (hb : IsArgB b) : W7 m ρ c (Proc.devRef .tc b) = m ((c : Thread nD τ).loc b) :=
  (ops2_keep (W6 m ρ c) b (Or.inl hb)).trans (at6_arg m ρ c b hb)

theorem at8_v49 : W8 m ρ c (Proc.devRef .tc main_v49) = val_main_v48 (A0 m c) (A1 m c) (A2 m c) (A3 m c) (A4 m c) := by
  refine (W8_arr m ρ c 3).trans ((final2 (V7 m ρ) c).trans ?_)
  dsimp only [V7]
  rw [at7_v47, at7_arg m ρ c main_arg4 (Or.inr (Or.inl rfl)), at7_v48]
  exact dotB_eq _ _ _ zeroRow_zero
theorem at8_v3 : W8 m ρ c (Proc.devRef .tc main_v3) = val_main_v3 (A1 m c) :=
  (W8_of_ne m ρ c main_v3 (by decide)).trans (at7_v3 m ρ c)
theorem at8_v6 : W8 m ρ c (Proc.devRef .tc main_v6) = val_main_v6 (A1 m c) :=
  (W8_of_ne m ρ c main_v6 (by decide)).trans (at7_v6 m ρ c)
theorem at8_v29 : W8 m ρ c (Proc.devRef .tc main_v29) = val_main_v29 (A1 m c) :=
  (W8_of_ne m ρ c main_v29 (by decide)).trans (at7_v29 m ρ c)
theorem at8_v30 : W8 m ρ c (Proc.devRef .tc main_v30) = zeros15 :=
  (W8_of_ne m ρ c main_v30 (by decide)).trans (at7_v30 m ρ c)
theorem at8_arg (b : Ref sig .tc) (hb : IsArgC b) : W8 m ρ c (Proc.devRef .tc b) = m ((c : Thread nD τ).loc b) := by
  refine Eq.trans ?_ (at7_arg m ρ c b hb.isArgB)
  rcases hb with rfl | rfl | rfl | rfl | rfl <;> exact W8_of_ne m ρ c _ (by decide)

theorem at9_v62 : W9 m ρ c (Proc.devRef .tc main_v62) = val_main_v61 (A0 m c) (A1 m c) (A2 m c) (A3 m c) (A4 m c) :=
  ops3_v62 (W8 m ρ c) _ _ _ _ _ (at8_v3 m ρ c) (at8_v6 m ρ c) (at8_v29 m ρ c) (at8_v49 m ρ c)
theorem at9_v63 : W9 m ρ c (Proc.devRef .tc main_v63) = shapeCast S1x15 (A5 m c) shapeCasts_S15_S1x15 :=
  ops3_v63 (W8 m ρ c) _ (at8_arg m ρ c main_arg5 (Or.inl rfl))
theorem at9_v3 : W9 m ρ c (Proc.devRef .tc main_v3) = val_main_v3 (A1 m c) :=
  (ops3_keep (W8 m ρ c) _ (Or.inr (Or.inl rfl))).trans (at8_v3 m ρ c)
theorem at9_v6 : W9 m ρ c (Proc.devRef .tc main_v6) = val_main_v6 (A1 m c) :=
  (ops3_keep (W8 m ρ c) _ (Or.inr (Or.inr (Or.inl rfl)))).trans (at8_v6 m ρ c)
theorem at9_v29 : W9 m ρ c (Proc.devRef .tc main_v29) = val_main_v29 (A1 m c) :=
  (ops3_keep (W8 m ρ c) _ (Or.inr (Or.inr (Or.inr (Or.inl rfl))))).trans (at8_v29 m ρ c)
theorem at9_v30 : W9 m ρ c (Proc.devRef .tc main_v30) = zeros15 :=
  (ops3_keep (W8 m ρ c) _ (Or.inr (Or.inr (Or.inr (Or.inr (rfl)))))).trans (at8_v30 m ρ c)
theorem at9_arg (b : Ref sig .tc) (hb : IsArgC b) : W9 m ρ c (Proc.devRef .tc b) = m ((c : Thread nD τ).loc b) :=
  (ops3_keep (W8 m ρ c) b (Or.inl hb)).trans (at8_arg m ρ c b hb)

theorem at10_v64 : W10 m ρ c (Proc.devRef .tc main_v64) = val_main_v65 (A0 m c) (A1 m c) (A2 m c) (A3 m c) (A4 m c) (A5 m c) := by
  refine (W10_arr m ρ c 2).trans ((final3 (V9 m ρ) c).trans ?_)
  dsimp only [V9]
  rw [at9_v62, at9_v63]
  exact biasRelu_eq _ _ (A5 m c) (rowOf15_apply (A5 m c))
theorem at10_v3 : W10 m ρ c (Proc.devRef .tc main_v3) = val_main_v3 (A1 m c) :=
  (W10_of_ne m ρ c main_v3 (by decide)).trans (at9_v3 m ρ c)
theorem at10_v6 : W10 m ρ c (Proc.devRef .tc main_v6) = val_main_v6 (A1 m c) :=
  (W10_of_ne m ρ c main_v6 (by decide)).trans (at9_v6 m ρ c)
theorem at10_v29 : W10 m ρ c (Proc.devRef .tc main_v29) = val_main_v29 (A1 m c) :=
  (W10_of_ne m ρ c main_v29 (by decide)).trans (at9_v29 m ρ c)
theorem at10_v30 : W10 m ρ c (Proc.devRef .tc main_v30) = zeros15 :=
  (W10_of_ne m ρ c main_v30 (by decide)).trans (at9_v30 m ρ c)
theorem at10_arg (b : Ref sig .tc) (hb : IsArgC b) : W10 m ρ c (Proc.devRef .tc b) = m ((c : Thread nD τ).loc b) := by
  refine Eq.trans ?_ (at9_arg m ρ c b hb)
  rcases hb with rfl | rfl | rfl | rfl | rfl <;> exact W10_of_ne m ρ c _ (by decide)

/-! ## The third layer -/

theorem at11_v65 : W11 m ρ c (Proc.devRef .tc main_v65) = zeroRow := ops4_v65 (W10 m ρ c) (at10_v30 m ρ c)
theorem at11_v3 : W11 m ρ c (Proc.devRef .tc main_v3) = val_main_v3 (A1 m c) :=
  (ops4_keep (W10 m ρ c) _ (Or.inr (Or.inl rfl))).trans (at10_v3 m ρ c)
theorem at11_v6 : W11 m ρ c (Proc.devRef .tc main_v6) = val_main_v6 (A1 m c) :=
  (ops4_keep (W10 m ρ c) _ (Or.inr (Or.inr (Or.inl rfl)))).trans (at10_v6 m ρ c)
theorem at11_v29 : W11 m ρ c (Proc.devRef .tc main_v29) = val_main_v29 (A1 m c) :=
  (ops4_keep (W10 m ρ c) _ (Or.inr (Or.inr (Or.inr (Or.inl rfl))))).trans (at10_v29 m ρ c)
theorem at11_v64 : W11 m ρ c (Proc.devRef .tc main_v64) = val_main_v65 (A0 m c) (A1 m c) (A2 m c) (A3 m c) (A4 m c) (A5 m c) :=
  (ops4_keep (W10 m ρ c) _ (Or.inr (Or.inr (Or.inr (Or.inr (rfl)))))).trans (at10_v64 m ρ c)
theorem at11_arg (b : Ref sig .tc) (hb : IsArgC b) : W11 m ρ c (Proc.devRef .tc b) = m ((c : Thread nD τ).loc b) :=
  (ops4_keep (W10 m ρ c) b (Or.inl hb)).trans (at10_arg m ρ c b hb)

theorem at12_v66 : W12 m ρ c (Proc.devRef .tc main_v66) = val_main_v66 (A0 m c) (A1 m c) (A2 m c) (A3 m c) (A4 m c) (A5 m c) (A6 m c) := by
  refine (W12_arr m ρ c 3).trans ((final4 (V11 m ρ) c).trans ?_)
  dsimp only [V11]
  rw [at11_v64, at11_arg m ρ c main_arg6 (Or.inr (Or.inl rfl)), at11_v65]
  exact dotB_eq _ _ _ zeroRow_zero
theorem at12_v3 : W12 m ρ c (Proc.devRef .tc main_v3) = val_main_v3 (A1 m c) :=
  (W12_of_ne m ρ c main_v3 (by decide)).trans (at11_v3 m ρ c)
theorem at12_v6 : W12 m ρ c (Proc.devRef .tc main_v6) = val_main_v6 (A1 m c) :=
  (W12_of_ne m ρ c main_v6 (by decide)).trans (at11_v6 m ρ c)
theorem at12_v29 : W12 m ρ c (Proc.devRef .tc main_v29) = val_main_v29 (A1 m c) :=
  (W12_of_ne m ρ c main_v29 (by decide)).trans (at11_v29 m ρ c)
theorem at12_arg (b : Ref sig .tc) (hb : IsArgD b) : W12 m ρ c (Proc.devRef .tc b) = m ((c : Thread nD τ).loc b) := by
  refine Eq.trans ?_ (at11_arg m ρ c b hb.isArgC)
  rcases hb with rfl | rfl | rfl <;> exact W12_of_ne m ρ c _ (by decide)

theorem at13_v79 : W13 m ρ c (Proc.devRef .tc main_v79) = val_main_v79 (A0 m c) (A1 m c) (A2 m c) (A3 m c) (A4 m c) (A5 m c) (A6 m c) :=
  ops5_v79 (W12 m ρ c) _ _ _ _ _ _ _ (at12_v3 m ρ c) (at12_v6 m ρ c) (at12_v29 m ρ c) (at12_v66 m ρ c)
theorem at13_v80 : W13 m ρ c (Proc.devRef .tc main_v80) = shapeCast S1x15 (A7 m c) shapeCasts_S15_S1x15 :=
  ops5_v80 (W12 m ρ c) _ (at12_arg m ρ c main_arg7 (Or.inl rfl))
theorem at13_arg (b : Ref sig .tc) (hb : IsArgD b) : W13 m ρ c (Proc.devRef .tc b) = m ((c : Thread nD τ).loc b) :=
  (ops5_keep (W12 m ρ c) b (hb)).trans (at12_arg m ρ c b hb)

theorem at14_v81 : W14 m ρ c (Proc.devRef .tc main_v81) = val_main_v83 (A0 m c) (A1 m c) (A2 m c) (A3 m c) (A4 m c) (A5 m c) (A6 m c) (A7 m c) := by
  refine (W14_arr m ρ c 2).trans ((final5 (V13 m ρ) c).trans ?_)
  dsimp only [V13]
  rw [at13_v79, at13_v80]
  exact biasRelu_eq _ _ (A7 m c) (rowOf15_apply (A7 m c))
theorem at14_arg (b : Ref sig .tc) (hb : IsArgD b) : W14 m ρ c (Proc.devRef .tc b) = m ((c : Thread nD τ).loc b) := by
  refine Eq.trans ?_ (at13_arg m ρ c b hb)
  rcases hb with rfl | rfl | rfl <;> exact W14_of_ne m ρ c _ (by decide)

/-! ## The last dense layer -/

theorem at15_v82 : W15 m ρ c (Proc.devRef .tc main_v82) = shapeCast S1x128 (A9 m c) shapeCasts_S128_S1x128 :=
  ops6_v82 (W14 m ρ c) _ (at14_arg m ρ c main_arg9 (Or.inr (Or.inr (rfl))))
theorem at15_v81 : W15 m ρ c (Proc.devRef .tc main_v81) = val_main_v83 (A0 m c) (A1 m c) (A2 m c) (A3 m c) (A4 m c) (A5 m c) (A6 m c) (A7 m c) :=
  (ops6_keep (W14 m ρ c) _ (Or.inl rfl)).trans (at14_v81 m ρ c)
theorem at15_arg8 : W15 m ρ c (Proc.devRef .tc main_arg8) = m ((c : Thread nD τ).loc main_arg8) :=
  (ops6_keep (W14 m ρ c) _ (Or.inr rfl)).trans (at14_arg m ρ c main_arg8 (Or.inr (Or.inl rfl)))

/-- The result array after the run is the reference's last stage of the ten arguments. -/
theorem kernel_result : W16 m ρ c (Proc.devRef .tc main_v83) = val_main_v87 (A0 m c) (A1 m c) (A2 m c) (A3 m c) (A4 m c) (A5 m c) (A6 m c) (A7 m c) (A8 m c) (A9 m c) := by
  refine (W16_arr m ρ c 3).trans ((final6 (V15 m ρ) c).trans ?_)
  dsimp only [V15]
  rw [at15_v81, at15_arg8, at15_v82]
  exact dotC_eq _ _ _ (A9 m c) (rowOf128_apply (A9 m c))

end Cert.KernelIdeal.Hand

end
-- ==== Proof.RefValue.lean ====
/-
  What the reference program computes: folding its host operations over the launch contents leaves, at the result
  buffer, the last stage of the read-at-an-index module applied to the ten arguments. The two index vectors
  (sources and targets of the edges, each the edge list joined with the self-loops) are read first, so that the rest
  of the fold meets them as named values.
-/
import proofs.«102663_j75076028334671_1_alg».proof.Proof.RefReadP
import Idealize.ShloMosaic.Lib.Pipeline.Frame

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem ops_split : (ops : List (HloOp τ sig (Elt F))) = List.take 7 ops ++ List.drop 7 ops :=
  (List.take_append_drop 7 ops).symm

set_option maxRecDepth 8192 in
set_option maxHeartbeats 4000000 in
theorem ref_value (m : (ℓ : Loc nD τ sig) → Buf (Elt F) ℓ) (c : Dev nD) :
    after ops (launchContents m c) (Proc.devRef .tc main_v87)
      = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, StableHlo.after_append]
  have h3 : after (List.take 7 ops) (launchContents m c) (Proc.devRef .tc main_v3) = val_main_v3 (F := F) (m ((c.tc : Thread nD τ).loc main_arg1)) := by
    simp only [ops, List.take_succ_cons, List.take_zero]
    after_results
    rfl
  have h6 : after (List.take 7 ops) (launchContents m c) (Proc.devRef .tc main_v6) = val_main_v6 (F := F) (m ((c.tc : Thread nD τ).loc main_arg1)) := by
    simp only [ops, List.take_succ_cons, List.take_zero]
    after_results
    rfl
  have ha : ∀ b : Ref sig .tc, b = main_arg0 ∨ b = main_arg2 ∨ b = main_arg3 ∨ b = main_arg4 ∨ b = main_arg5 ∨ b = main_arg6 ∨ b = main_arg7 ∨ b = main_arg8 ∨ b = main_arg9 →
      after (List.take 7 ops) (launchContents m c) (Proc.devRef .tc b) = m ((c.tc : Thread nD τ).loc b) := by
    intro b hb
    rcases hb with rfl | rfl | rfl | rfl | rfl | rfl | rfl | rfl | rfl <;>
      (simp only [ops, List.take_succ_cons, List.take_zero]; after_results)
  generalize after (List.take 7 ops) (launchContents m c) = W at h3 h6 ha ⊢
  simp only [ops, List.drop_succ_cons, List.drop_zero]
  after_results_simp
  rw [h3, h6, ha main_arg0 (Or.inl rfl), ha main_arg2 (Or.inr (Or.inl rfl)), ha main_arg3 (Or.inr (Or.inr (Or.inl rfl))), ha main_arg4 (Or.inr (Or.inr (Or.inr (Or.inl rfl)))), ha main_arg5 (Or.inr (Or.inr (Or.inr (Or.inr (Or.inl rfl))))), ha main_arg6 (Or.inr (Or.inr (Or.inr (Or.inr (Or.inr (Or.inl rfl)))))), ha main_arg7 (Or.inr (Or.inr (Or.inr (Or.inr (Or.inr (Or.inr (Or.inl rfl))))))), ha main_arg8 (Or.inr (Or.inr (Or.inr (Or.inr (Or.inr (Or.inr (Or.inr (Or.inl rfl)))))))), ha main_arg9 (Or.inr (Or.inr (Or.inr (Or.inr (Or.inr (Or.inr (Or.inr (Or.inr (rfl)))))))))]
  rfl

set_option maxRecDepth 8192 in
set_option maxHeartbeats 8000000 in
/-- No operation writes an argument array. -/
theorem ref_arg (m : (ℓ : Loc nD τ sig) → Buf (Elt F) ℓ) (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9) :
    after ops (launchContents m c) (Proc.devRef .tc b) = m ((c.tc : Thread nD τ).loc b) := by
  rcases hb with rfl | rfl | rfl | rfl | rfl | rfl | rfl | rfl | rfl | rfl <;>
    (after_results_simp <;> rfl)

/-- The reference's run, read: every weakly fair execution terminates with the result array at the last stage of
    the arguments, and the arguments as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v87).trans (ref_value m c),
      (h c main_arg0).trans (ref_arg m c _ (Or.inl rfl)),
      (h c main_arg1).trans (ref_arg m c _ (Or.inr (Or.inl rfl))),
      (h c main_arg2).trans (ref_arg m c _ (Or.inr (Or.inr (Or.inl rfl)))),
      (h c main_arg3).trans (ref_arg m c _ (Or.inr (Or.inr (Or.inr (Or.inl rfl))))),
      (h c main_arg4).trans (ref_arg m c _ (Or.inr (Or.inr (Or.inr (Or.inr (Or.inl rfl)))))),
      (h c main_arg5).trans (ref_arg m c _ (Or.inr (Or.inr (Or.inr (Or.inr (Or.inr (Or.inl rfl))))))),
      (h c main_arg6).trans (ref_arg m c _ (Or.inr (Or.inr (Or.inr (Or.inr (Or.inr (Or.inr (Or.inl rfl)))))))),
      (h c main_arg7).trans (ref_arg m c _ (Or.inr (Or.inr (Or.inr (Or.inr (Or.inr (Or.inr (Or.inr (Or.inl rfl))))))))),
      (h c main_arg8).trans (ref_arg m c _ (Or.inr (Or.inr (Or.inr (Or.inr (Or.inr (Or.inr (Or.inr (Or.inr (Or.inl rfl)))))))))),
      (h c main_arg9).trans (ref_arg m c _ (Or.inr (Or.inr (Or.inr (Or.inr (Or.inr (Or.inr (Or.inr (Or.inr (Or.inr (rfl)))))))))))⟩)
    (run_after m ρ)

end Cert.ReferenceIdeal.Hand

end
-- ==== Proof.lean ====
/-
  The certificate of a three-layer graph-convolution network over 100000 nodes and 6400000 edges (plus the self-loops)
  against its plain reference, on the extended reals.

  Both programs compute, from the edge list, the sources and targets of the edges, the degree of every node and the
  symmetric normalisation `dinv[row] * dinv[col]`; then, three times, a dense layer `h · W`, the rows of the product
  gathered along the sources, scaled by the normalisation and added up along the targets, a bias and a rectifier; then a
  last dense layer with its bias. The kernel program runs the four dense layers and the three bias-and-rectify steps as
  launched kernels over ten blocks of 10000 rows each, the dense ones through a matrix unit with a zero accumulator and
  (except the last) a zero bias row; everything else is the reference's own host operations in the reference's order.
  On the extended reals a change of float format is the identity, a matrix product into a zero accumulator is the plain
  sum of products, and adding the zero row changes nothing (`a + 0 = a` holds for every extended real), so each launched
  kernel leaves what the reference's corresponding operations compute, block by block, and the blocks fill the array.
  No law that needs finiteness is used: the precondition is never opened.

  The three frames: the two kernel programs' by the generated frame certificates, the reference's by its run. The ideal
  pass rewrote nothing, so `preserves` is trivial. For the value claim both runs end with the result array at the
  reference's last stage of the ten argument arrays, and the arguments agree.
-/
import proofs.«102663_j75076028334671_1_alg».proof.Defs
import proofs.«102663_j75076028334671_1_alg».proof.Proof.Gen.Kernel
import proofs.«102663_j75076028334671_1_alg».proof.Proof.Gen.Kernel.Skeleton
import proofs.«102663_j75076028334671_1_alg».proof.Proof.Gen.Kernel.Launch
import proofs.«102663_j75076028334671_1_alg».proof.Proof.Gen.Kernel.Points
import proofs.«102663_j75076028334671_1_alg».proof.Proof.Gen.Kernel.Frame
import proofs.«102663_j75076028334671_1_alg».proof.Proof.Gen.KernelIdeal
import proofs.«102663_j75076028334671_1_alg».proof.Proof.Gen.KernelIdeal.Skeleton
import proofs.«102663_j75076028334671_1_alg».proof.Proof.Gen.KernelIdeal.Launch
import proofs.«102663_j75076028334671_1_alg».proof.Proof.Gen.KernelIdeal.Points
import proofs.«102663_j75076028334671_1_alg».proof.Proof.Gen.KernelIdeal.Frame
import proofs.«102663_j75076028334671_1_alg».proof.Proof.Gen.ReferenceIdeal
import proofs.«102663_j75076028334671_1_alg».proof.Proof.Gen.Pre_finite_inputs
import proofs.«102663_j75076028334671_1_alg».proof.Proof.KRun
import proofs.«102663_j75076028334671_1_alg».proof.Proof.Chain1
import proofs.«102663_j75076028334671_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.ref_run (F := Ideal) m ρ)

/-- The ideal pass rewrote no operation. -/
theorem preserves : Cert.preserves_Kernel_KernelIdeal := trivial

/-- Both runs end with the result array at the reference's last stage of the kernel program's argument arrays: the
    kernel program's by following its buffers from boundary to boundary, the reference's by its run and the agreement
    of the arguments. -/
theorem algebraic : Cert.algebraic_KernelIdeal_ReferenceIdeal := by
  intro m ρ m' ρ' _ hagree
  refine ⟨fun c => Cert.ReferenceIdeal.ReadP.val_main_v87 (F := Ideal) (Cert.KernelIdeal.Hand.A0 m c) (Cert.KernelIdeal.Hand.A1 m c)
      (Cert.KernelIdeal.Hand.A2 m c) (Cert.KernelIdeal.Hand.A3 m c) (Cert.KernelIdeal.Hand.A4 m c) (Cert.KernelIdeal.Hand.A5 m c)
      (Cert.KernelIdeal.Hand.A6 m c) (Cert.KernelIdeal.Hand.A7 m c) (Cert.KernelIdeal.Hand.A8 m c) (Cert.KernelIdeal.Hand.A9 m c), ?_, ?_⟩
  · exact (θ_run Cert.KernelIdeal.defs _ _).mono
      (fun _ h c => ⟨(h c).1.trans (Cert.KernelIdeal.Hand.kernel_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.ref_run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
